-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18)) (m ((c.tc : Thread Cert.Kernel.nD Cert.Kernel.τ).loc Cert.Kernel.main_arg19))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)) →
    ∃ (v0 : (c : Dev Cert.KernelIdeal.nD) → Buf (Elt Ideal) ((c.tc : Thread Cert.KernelIdeal.nD Cert.KernelIdeal.τ).loc Cert.KernelIdeal.main_v16)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v16) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v53) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2048x64x128 : Shape := ⟨3, ![2048, 64, 128]⟩
abbrev S2048x64x1 : Shape := ⟨3, ![2048, 64, 1]⟩
abbrev S500x128 : Shape := ⟨2, ![500, 128]⟩
abbrev S500 : Shape := ⟨1, ![500]⟩
abbrev S500x1 : Shape := ⟨2, ![500, 1]⟩
abbrev S500x500 : Shape := ⟨2, ![500, 500]⟩
abbrev S1x500 : Shape := ⟨2, ![1, 500]⟩
abbrev S1 : Shape := ⟨1, ![1]⟩
abbrev S_ : Shape := ⟨0, ![]⟩

class Facts : Prop where
  bcast_S_S2048x64x128 : S_.BroadcastsInDim S2048x64x128 (![] : Fin 0 → Fin S2048x64x128.rank)
  reducesTo_S2048x64x128_S_d0_1_2 : S2048x64x128.ReducesTo [0, 1, 2] S_
  h_S_ : 0 < S_.numel
  bcast_S_S2048x64x1 : S_.BroadcastsInDim S2048x64x1 (![] : Fin 0 → Fin S2048x64x1.rank)
  reducesTo_S2048x64x1_S_d0_1_2 : S2048x64x1.ReducesTo [0, 1, 2] S_
  bcast_S_S500x128 : S_.BroadcastsInDim S500x128 (![] : Fin 0 → Fin S500x128.rank)
  reducesTo_S500x128_S_d0_1 : S500x128.ReducesTo [0, 1] S_
  bcast_S_S500 : S_.BroadcastsInDim S500 (![] : Fin 0 → Fin S500.rank)
  reducesTo_S500_S_d0 : S500.ReducesTo [0] S_
  bcast_S_S500x1 : S_.BroadcastsInDim S500x1 (![] : Fin 0 → Fin S500x1.rank)
  reducesTo_S500x1_S_d0_1 : S500x1.ReducesTo [0, 1] S_
  bcast_S_S500x500 : S_.BroadcastsInDim S500x500 (![] : Fin 0 → Fin S500x500.rank)
  reducesTo_S500x500_S_d0_1 : S500x500.ReducesTo [0, 1] S_
  bcast_S_S1x500 : S_.BroadcastsInDim S1x500 (![] : Fin 0 → Fin S1x500.rank)
  reducesTo_S1x500_S_d0_1 : S1x500.ReducesTo [0, 1] S_
  bcast_S_S1 : S_.BroadcastsInDim S1 (![] : Fin 0 → Fin S1.rank)
  reducesTo_S1_S_d0 : S1.ReducesTo [0] S_

variable [Facts]

def fn_part5 {F : FTy → Type} [FloatOps F] (main_arg18 : FVec F S1x500 .f32) (main_arg19 : FVec F S1 .f32) (main_v83 : IVec S_ 1) (main_v84 : FVec F S500 .f32) (main_cst_32 : FVec F S_ .f32) : IVec S_ 1 :=
  let main_v85 : FVec F S500 .f32 := broadcastInDim S500 ![] bcast_S_S500 main_cst_32
  let main_v86 : IVec S500 1 := cmpf .olt main_v84 main_v85
  let main_c_33 : IVec S_ 1 := constantI S_ 1 1#1
  let main_v87 : IVec S_ 1 := (fun x v => Host.reduce IntOp.andi x v reducesTo_S500_S_d0 h_S_) main_v86 main_c_33
  let main_v88 : IVec S_ 1 := andi main_v83 main_v87
  let main_v89 : FVec F S1x500 .f32 := Host.absf main_arg18
  let main_cst_34 : FVec F S_ .f32 := constant S_ .f32 0x7F800000#32
  let main_v90 : FVec F S1x500 .f32 := broadcastInDim S1x500 ![] bcast_S_S1x500 main_cst_34
  let main_v91 : IVec S1x500 1 := cmpf .olt main_v89 main_v90
  let main_c_35 : IVec S_ 1 := constantI S_ 1 1#1
  let main_v92 : IVec S_ 1 := (fun x v => Host.reduce IntOp.andi x v reducesTo_S1x500_S_d0_1 h_S_) main_v91 main_c_35
  let main_v93 : IVec S_ 1 := andi main_v88 main_v92
  let main_v94 : FVec F S1 .f32 := Host.absf main_arg19
  let main_cst_36 : FVec F S_ .f32 := constant S_ .f32 0x7F800000#32
  let main_v95 : FVec F S1 .f32 := broadcastInDim S1 ![] bcast_S_S1 main_cst_36
  let main_v96 : IVec S1 1 := cmpf .olt main_v94 main_v95
  let main_c_37 : IVec S_ 1 := constantI S_ 1 1#1
  let main_v97 : IVec S_ 1 := (fun x v => Host.reduce IntOp.andi x v reducesTo_S1_S_d0 h_S_) main_v96 main_c_37
  let main_v98 : IVec S_ 1 := andi main_v93 main_v97
  main_v98

def fn_part4 {F : FTy → Type} [FloatOps F] (main_arg14 : FVec F S500x500 .f32) (main_arg15 : FVec F S500 .f32) (main_arg16 : FVec F S500x500 .f32) (main_arg17 : FVec F S500 .f32) (main_arg18 : FVec F S1x500 .f32) (main_arg19 : FVec F S1 .f32) (main_v63 : IVec S_ 1) (main_v67 : IVec S_ 1) : IVec S_ 1 :=
  let main_v68 : IVec S_ 1 := andi main_v63 main_v67
  let main_v69 : FVec F S500x500 .f32 := Host.absf main_arg14
  let main_cst_26 : FVec F S_ .f32 := constant S_ .f32 0x7F800000#32
  let main_v70 : FVec F S500x500 .f32 := broadcastInDim S500x500 ![] bcast_S_S500x500 main_cst_26
  let main_v71 : IVec S500x500 1 := cmpf .olt main_v69 main_v70
  let main_c_27 : IVec S_ 1 := constantI S_ 1 1#1
  let main_v72 : IVec S_ 1 := (fun x v => Host.reduce IntOp.andi x v reducesTo_S500x500_S_d0_1 h_S_) main_v71 main_c_27
  let main_v73 : IVec S_ 1 := andi main_v68 main_v72
  let main_v74 : FVec F S500 .f32 := Host.absf main_arg15
  let main_cst_28 : FVec F S_ .f32 := constant S_ .f32 0x7F800000#32
  let main_v75 : FVec F S500 .f32 := broadcastInDim S500 ![] bcast_S_S500 main_cst_28
  let main_v76 : IVec S500 1 := cmpf .olt main_v74 main_v75
  let main_c_29 : IVec S_ 1 := constantI S_ 1 1#1
  let main_v77 : IVec S_ 1 := (fun x v => Host.reduce IntOp.andi x v reducesTo_S500_S_d0 h_S_) main_v76 main_c_29
  let main_v78 : IVec S_ 1 := andi main_v73 main_v77
  let main_v79 : FVec F S500x500 .f32 := Host.absf main_arg16
  let main_cst_30 : FVec F S_ .f32 := constant S_ .f32 0x7F800000#32
  let main_v80 : FVec F S500x500 .f32 := broadcastInDim S500x500 ![] bcast_S_S500x500 main_cst_30
  let main_v81 : IVec S500x500 1 := cmpf .olt main_v79 main_v80
  let main_c_31 : IVec S_ 1 := constantI S_ 1 1#1
  let main_v82 : IVec S_ 1 := (fun x v => Host.reduce IntOp.andi x v reducesTo_S500x500_S_d0_1 h_S_) main_v81 main_c_31
  let main_v83 : IVec S_ 1 := andi main_v78 main_v82
  let main_v84 : FVec F S500 .f32 := Host.absf main_arg17
  let main_cst_32 : FVec F S_ .f32 := constant S_ .f32 0x7F800000#32
  fn_part5 (F := F) main_arg18 main_arg19 main_v83 main_v84 main_cst_32

def fn_part3 {F : FTy → Type} [FloatOps F] (main_arg11 : FVec F S500 .f32) (main_arg12 : FVec F S500x500 .f32) (main_arg13 : FVec F S500 .f32) (main_arg14 : FVec F S500x500 .f32) (main_arg15 : FVec F S500 .f32) (main_arg16 : FVec F S500x500 .f32) (main_arg17 : FVec F S500 .f32) (main_arg18 : FVec F S1x500 .f32) (main_arg19 : FVec F S1 .f32) (main_v48 : IVec S_ 1) (main_v49 : FVec F S500x1 .f32) (main_v50 : FVec F S500x1 .f32) : IVec S_ 1 :=
  let main_v51 : IVec S500x1 1 := cmpf .olt main_v49 main_v50
  let main_c_19 : IVec S_ 1 := constantI S_ 1 1#1
  let main_v52 : IVec S_ 1 := (fun x v => Host.reduce IntOp.andi x v reducesTo_S500x1_S_d0_1 h_S_) main_v51 main_c_19
  let main_v53 : IVec S_ 1 := andi main_v48 main_v52
  let main_v54 : FVec F S500 .f32 := Host.absf main_arg11
  let main_cst_20 : FVec F S_ .f32 := constant S_ .f32 0x7F800000#32
  let main_v55 : FVec F S500 .f32 := broadcastInDim S500 ![] bcast_S_S500 main_cst_20
  let main_v56 : IVec S500 1 := cmpf .olt main_v54 main_v55
  let main_c_21 : IVec S_ 1 := constantI S_ 1 1#1
  let main_v57 : IVec S_ 1 := (fun x v => Host.reduce IntOp.andi x v reducesTo_S500_S_d0 h_S_) main_v56 main_c_21
  let main_v58 : IVec S_ 1 := andi main_v53 main_v57
  let main_v59 : FVec F S500x500 .f32 := Host.absf main_arg12
  let main_cst_22 : FVec F S_ .f32 := constant S_ .f32 0x7F800000#32
  let main_v60 : FVec F S500x500 .f32 := broadcastInDim S500x500 ![] bcast_S_S500x500 main_cst_22
  let main_v61 : IVec S500x500 1 := cmpf .olt main_v59 main_v60
  let main_c_23 : IVec S_ 1 := constantI S_ 1 1#1
  let main_v62 : IVec S_ 1 := (fun x v => Host.reduce IntOp.andi x v reducesTo_S500x500_S_d0_1 h_S_) main_v61 main_c_23
  let main_v63 : IVec S_ 1 := andi main_v58 main_v62
  let main_v64 : FVec F S500 .f32 := Host.absf main_arg13
  let main_cst_24 : FVec F S_ .f32 := constant S_ .f32 0x7F800000#32
  let main_v65 : FVec F S500 .f32 := broadcastInDim S500 ![] bcast_S_S500 main_cst_24
  let main_v66 : IVec S500 1 := cmpf .olt main_v64 main_v65
  let main_c_25 : IVec S_ 1 := constantI S_ 1 1#1
  let main_v67 : IVec S_ 1 := (fun x v => Host.reduce IntOp.andi x v reducesTo_S500_S_d0 h_S_) main_v66 main_c_25
  fn_part4 (F := F) main_arg14 main_arg15 main_arg16 main_arg17 main_arg18 main_arg19 main_v63 main_v67

def fn_part2 {F : FTy → Type} [FloatOps F] (main_arg7 : FVec F S500 .f32) (main_arg8 : FVec F S500x1 .f32) (main_arg9 : FVec F S500 .f32) (main_arg10 : FVec F S500x1 .f32) (main_arg11 : FVec F S500 .f32) (main_arg12 : FVec F S500x500 .f32) (main_arg13 : FVec F S500 .f32) (main_arg14 : FVec F S500x500 .f32) (main_arg15 : FVec F S500 .f32) (main_arg16 : FVec F S500x500 .f32) (main_arg17 : FVec F S500 .f32) (main_arg18 : FVec F S1x500 .f32) (main_arg19 : FVec F S1 .f32) (main_v33 : IVec S_ 1) : IVec S_ 1 :=
  let main_v34 : FVec F S500 .f32 := Host.absf main_arg7
  let main_cst_12 : FVec F S_ .f32 := constant S_ .f32 0x7F800000#32
  let main_v35 : FVec F S500 .f32 := broadcastInDim S500 ![] bcast_S_S500 main_cst_12
  let main_v36 : IVec S500 1 := cmpf .olt main_v34 main_v35
  let main_c_13 : IVec S_ 1 := constantI S_ 1 1#1
  let main_v37 : IVec S_ 1 := (fun x v => Host.reduce IntOp.andi x v reducesTo_S500_S_d0 h_S_) main_v36 main_c_13
  let main_v38 : IVec S_ 1 := andi main_v33 main_v37
  let main_v39 : FVec F S500x1 .f32 := Host.absf main_arg8
  let main_cst_14 : FVec F S_ .f32 := constant S_ .f32 0x7F800000#32
  let main_v40 : FVec F S500x1 .f32 := broadcastInDim S500x1 ![] bcast_S_S500x1 main_cst_14
  let main_v41 : IVec S500x1 1 := cmpf .olt main_v39 main_v40
  let main_c_15 : IVec S_ 1 := constantI S_ 1 1#1
  let main_v42 : IVec S_ 1 := (fun x v => Host.reduce IntOp.andi x v reducesTo_S500x1_S_d0_1 h_S_) main_v41 main_c_15
  let main_v43 : IVec S_ 1 := andi main_v38 main_v42
  let main_v44 : FVec F S500 .f32 := Host.absf main_arg9
  let main_cst_16 : FVec F S_ .f32 := constant S_ .f32 0x7F800000#32
  let main_v45 : FVec F S500 .f32 := broadcastInDim S500 ![] bcast_S_S500 main_cst_16
  let main_v46 : IVec S500 1 := cmpf .olt main_v44 main_v45
  let main_c_17 : IVec S_ 1 := constantI S_ 1 1#1
  let main_v47 : IVec S_ 1 := (fun x v => Host.reduce IntOp.andi x v reducesTo_S500_S_d0 h_S_) main_v46 main_c_17
  let main_v48 : IVec S_ 1 := andi main_v43 main_v47
  let main_v49 : FVec F S500x1 .f32 := Host.absf main_arg10
  let main_cst_18 : FVec F S_ .f32 := constant S_ .f32 0x7F800000#32
  let main_v50 : FVec F S500x1 .f32 := broadcastInDim S500x1 ![] bcast_S_S500x1 main_cst_18
  fn_part3 (F := F) main_arg11 main_arg12 main_arg13 main_arg14 main_arg15 main_arg16 main_arg17 main_arg18 main_arg19 main_v48 main_v49 main_v50

def fn_part1 {F : FTy → Type} [FloatOps F] (main_arg4 : FVec F S500x128 .f32) (main_arg5 : FVec F S500 .f32) (main_arg6 : FVec F S500x128 .f32) (main_arg7 : FVec F S500 .f32) (main_arg8 : FVec F S500x1 .f32) (main_arg9 : FVec F S500 .f32) (main_arg10 : FVec F S500x1 .f32) (main_arg11 : FVec F S500 .f32) (main_arg12 : FVec F S500x500 .f32) (main_arg13 : FVec F S500 .f32) (main_arg14 : FVec F S500x500 .f32) (main_arg15 : FVec F S500 .f32) (main_arg16 : FVec F S500x500 .f32) (main_arg17 : FVec F S500 .f32) (main_arg18 : FVec F S1x500 .f32) (main_arg19 : FVec F S1 .f32) (main_v13 : IVec S_ 1) (main_v16 : IVec S2048x64x1 1) : IVec S_ 1 :=
  let main_c_5 : IVec S_ 1 := constantI S_ 1 1#1
  let main_v17 : IVec S_ 1 := (fun x v => Host.reduce IntOp.andi x v reducesTo_S2048x64x1_S_d0_1_2 h_S_) main_v16 main_c_5
  let main_v18 : IVec S_ 1 := andi main_v13 main_v17
  let main_v19 : FVec F S500x128 .f32 := Host.absf main_arg4
  let main_cst_6 : FVec F S_ .f32 := constant S_ .f32 0x7F800000#32
  let main_v20 : FVec F S500x128 .f32 := broadcastInDim S500x128 ![] bcast_S_S500x128 main_cst_6
  let main_v21 : IVec S500x128 1 := cmpf .olt main_v19 main_v20
  let main_c_7 : IVec S_ 1 := constantI S_ 1 1#1
  let main_v22 : IVec S_ 1 := (fun x v => Host.reduce IntOp.andi x v reducesTo_S500x128_S_d0_1 h_S_) main_v21 main_c_7
  let main_v23 : IVec S_ 1 := andi main_v18 main_v22
  let main_v24 : FVec F S500 .f32 := Host.absf main_arg5
  let main_cst_8 : FVec F S_ .f32 := constant S_ .f32 0x7F800000#32
  let main_v25 : FVec F S500 .f32 := broadcastInDim S500 ![] bcast_S_S500 main_cst_8
  let main_v26 : IVec S500 1 := cmpf .olt main_v24 main_v25
  let main_c_9 : IVec S_ 1 := constantI S_ 1 1#1
  let main_v27 : IVec S_ 1 := (fun x v => Host.reduce IntOp.andi x v reducesTo_S500_S_d0 h_S_) main_v26 main_c_9
  let main_v28 : IVec S_ 1 := andi main_v23 main_v27
  let main_v29 : FVec F S500x128 .f32 := Host.absf main_arg6
  let main_cst_10 : FVec F S_ .f32 := constant S_ .f32 0x7F800000#32
  let main_v30 : FVec F S500x128 .f32 := broadcastInDim S500x128 ![] bcast_S_S500x128 main_cst_10
  let main_v31 : IVec S500x128 1 := cmpf .olt main_v29 main_v30
  let main_c_11 : IVec S_ 1 := constantI S_ 1 1#1
  let main_v32 : IVec S_ 1 := (fun x v => Host.reduce IntOp.andi x v reducesTo_S500x128_S_d0_1 h_S_) main_v31 main_c_11
  let main_v33 : IVec S_ 1 := andi main_v28 main_v32
  fn_part2 (F := F) main_arg7 main_arg8 main_arg9 main_arg10 main_arg11 main_arg12 main_arg13 main_arg14 main_arg15 main_arg16 main_arg17 main_arg18 main_arg19 main_v33

def fn {F : FTy → Type} [FloatOps F] (main_arg0 : FVec F S2048x64x128 .f32) (main_arg1 : FVec F S2048x64x128 .f32) (main_arg2 : FVec F S2048x64x1 .f32) (main_arg3 : FVec F S2048x64x1 .f32) (main_arg4 : FVec F S500x128 .f32) (main_arg5 : FVec F S500 .f32) (main_arg6 : FVec F S500x128 .f32) (main_arg7 : FVec F S500 .f32) (main_arg8 : FVec F S500x1 .f32) (main_arg9 : FVec F S500 .f32) (main_arg10 : FVec F S500x1 .f32) (main_arg11 : FVec F S500 .f32) (main_arg12 : FVec F S500x500 .f32) (main_arg13 : FVec F S500 .f32) (main_arg14 : FVec F S500x500 .f32) (main_arg15 : FVec F S500 .f32) (main_arg16 : FVec F S500x500 .f32) (main_arg17 : FVec F S500 .f32) (main_arg18 : FVec F S1x500 .f32) (main_arg19 : FVec F S1 .f32) : IVec S_ 1 :=
  let main_v0 : FVec F S2048x64x128 .f32 := Host.absf main_arg0
  let main_cst : FVec F S_ .f32 := constant S_ .f32 0x7F800000#32
  let main_v1 : FVec F S2048x64x128 .f32 := broadcastInDim S2048x64x128 ![] bcast_S_S2048x64x128 main_cst
  let main_v2 : IVec S2048x64x128 1 := cmpf .olt main_v0 main_v1
  let main_c : IVec S_ 1 := constantI S_ 1 1#1
  let main_v3 : IVec S_ 1 := (fun x v => Host.reduce IntOp.andi x v reducesTo_S2048x64x128_S_d0_1_2 h_S_) main_v2 main_c
  let main_v4 : FVec F S2048x64x128 .f32 := Host.absf main_arg1
  let main_cst_0 : FVec F S_ .f32 := constant S_ .f32 0x7F800000#32
  let main_v5 : FVec F S2048x64x128 .f32 := broadcastInDim S2048x64x128 ![] bcast_S_S2048x64x128 main_cst_0
  let main_v6 : IVec S2048x64x128 1 := cmpf .olt main_v4 main_v5
  let main_c_1 : IVec S_ 1 := constantI S_ 1 1#1
  let main_v7 : IVec S_ 1 := (fun x v => Host.reduce IntOp.andi x v reducesTo_S2048x64x128_S_d0_1_2 h_S_) main_v6 main_c_1
  let main_v8 : IVec S_ 1 := andi main_v3 main_v7
  let main_v9 : FVec F S2048x64x1 .f32 := Host.absf main_arg2
  let main_cst_2 : FVec F S_ .f32 := constant S_ .f32 0x7F800000#32
  let main_v10 : FVec F S2048x64x1 .f32 := broadcastInDim S2048x64x1 ![] bcast_S_S2048x64x1 main_cst_2
  let main_v11 : IVec S2048x64x1 1 := cmpf .olt main_v9 main_v10
  let main_c_3 : IVec S_ 1 := constantI S_ 1 1#1
  let main_v12 : IVec S_ 1 := (fun x v => Host.reduce IntOp.andi x v reducesTo_S2048x64x1_S_d0_1_2 h_S_) main_v11 main_c_3
  let main_v13 : IVec S_ 1 := andi main_v8 main_v12
  let main_v14 : FVec F S2048x64x1 .f32 := Host.absf main_arg3
  let main_cst_4 : FVec F S_ .f32 := constant S_ .f32 0x7F800000#32
  let main_v15 : FVec F S2048x64x1 .f32 := broadcastInDim S2048x64x1 ![] bcast_S_S2048x64x1 main_cst_4
  let main_v16 : IVec S2048x64x1 1 := cmpf .olt main_v14 main_v15
  fn_part1 (F := F) main_arg4 main_arg5 main_arg6 main_arg7 main_arg8 main_arg9 main_arg10 main_arg11 main_arg12 main_arg13 main_arg14 main_arg15 main_arg16 main_arg17 main_arg18 main_arg19 main_v13 main_v16
-- ==== Kernel.lean ====
abbrev S2048x64x128 : Shape := ⟨3, ![2048, 64, 128]⟩
abbrev S2048x64x1 : Shape := ⟨3, ![2048, 64, 1]⟩
abbrev S500x128 : Shape := ⟨2, ![500, 128]⟩
abbrev S500 : Shape := ⟨1, ![500]⟩
abbrev S500x1 : Shape := ⟨2, ![500, 1]⟩
abbrev S500x500 : Shape := ⟨2, ![500, 500]⟩
abbrev S1x500 : Shape := ⟨2, ![1, 500]⟩
abbrev S1 : Shape := ⟨1, ![1]⟩
abbrev S1x64x128 : Shape := ⟨3, ![1, 64, 128]⟩
abbrev S64x128 : Shape := ⟨2, ![64, 128]⟩
abbrev S1x64x1 : Shape := ⟨3, ![1, 64, 1]⟩
abbrev S64x1 : Shape := ⟨2, ![64, 1]⟩
abbrev S1x1 : Shape := ⟨2, ![1, 1]⟩
abbrev S64x500 : Shape := ⟨2, ![64, 500]⟩
abbrev S64 : Shape := ⟨1, ![64]⟩

abbrev nBuf : Space → Nat
  | .hbm => 37
  | .vmem => 21
  | .smem => 0
  | _ => 0

abbrev bufTy : (tb : Table) → Fin (tcTables nBuf tb) → BufTy
  | .hbm, ⟨0, _⟩ => ⟨S2048x64x128, .f32⟩
  | .hbm, ⟨1, _⟩ => ⟨S2048x64x128, .f32⟩
  | .hbm, ⟨2, _⟩ => ⟨S2048x64x1, .f32⟩
  | .hbm, ⟨3, _⟩ => ⟨S2048x64x1, .f32⟩
  | .hbm, ⟨4, _⟩ => ⟨S500x128, .f32⟩
  | .hbm, ⟨5, _⟩ => ⟨S500, .f32⟩
  | .hbm, ⟨6, _⟩ => ⟨S500x128, .f32⟩
  | .hbm, ⟨7, _⟩ => ⟨S500, .f32⟩
  | .hbm, ⟨8, _⟩ => ⟨S500x1, .f32⟩
  | .hbm, ⟨9, _⟩ => ⟨S500, .f32⟩
  | .hbm, ⟨10, _⟩ => ⟨S500x1, .f32⟩
  | .hbm, ⟨11, _⟩ => ⟨S500, .f32⟩
  | .hbm, ⟨12, _⟩ => ⟨S500x500, .f32⟩
  | .hbm, ⟨13, _⟩ => ⟨S500, .f32⟩
  | .hbm, ⟨14, _⟩ => ⟨S500x500, .f32⟩
  | .hbm, ⟨15, _⟩ => ⟨S500, .f32⟩
  | .hbm, ⟨16, _⟩ => ⟨S500x500, .f32⟩
  | .hbm, ⟨17, _⟩ => ⟨S500, .f32⟩
  | .hbm, ⟨18, _⟩ => ⟨S1x500, .f32⟩
  | .hbm, ⟨19, _⟩ => ⟨S1, .f32⟩
  | .hbm, ⟨20, _⟩ => ⟨S1x64x128, .f32⟩
  | .hbm, ⟨21, _⟩ => ⟨S64x128, .f32⟩
  | .hbm, ⟨22, _⟩ => ⟨S1x64x128, .f32⟩
  | .hbm, ⟨23, _⟩ => ⟨S64x128, .f32⟩
  | .hbm, ⟨24, _⟩ => ⟨S1x64x1, .f32⟩
  | .hbm, ⟨25, _⟩ => ⟨S64x1, .f32⟩
  | .hbm, ⟨26, _⟩ => ⟨S1x64x1, .f32⟩
  | .hbm, ⟨27, _⟩ => ⟨S64x1, .f32⟩
  | .hbm, ⟨28, _⟩ => ⟨S1x500, .f32⟩
  | .hbm, ⟨29, _⟩ => ⟨S1x500, .f32⟩
  | .hbm, ⟨30, _⟩ => ⟨S1x500, .f32⟩
  | .hbm, ⟨31, _⟩ => ⟨S1x500, .f32⟩
  | .hbm, ⟨32, _⟩ => ⟨S1x500, .f32⟩
  | .hbm, ⟨33, _⟩ => ⟨S1x500, .f32⟩
  | .hbm, ⟨34, _⟩ => ⟨S1x500, .f32⟩
  | .hbm, ⟨35, _⟩ => ⟨S1x1, .f32⟩
  | .hbm, ⟨36, _⟩ => ⟨S64x1, .f32⟩
  | .local _ .vmem, ⟨0, _⟩ => ⟨S64x128, .f32⟩
  | .local _ .vmem, ⟨1, _⟩ => ⟨S64x128, .f32⟩
  | .local _ .vmem, ⟨2, _⟩ => ⟨S64x1, .f32⟩
  | .local _ .vmem, ⟨3, _⟩ => ⟨S64x1, .f32⟩
  | .local _ .vmem, ⟨4, _⟩ => ⟨S500x128, .f32⟩
  | .local _ .vmem, ⟨5, _⟩ => ⟨S1x500, .f32⟩
  | .local _ .vmem, ⟨6, _⟩ => ⟨S500x128, .f32⟩
  | .local _ .vmem, ⟨7, _⟩ => ⟨S1x500, .f32⟩
  | .local _ .vmem, ⟨8, _⟩ => ⟨S500x1, .f32⟩
  | .local _ .vmem, ⟨9, _⟩ => ⟨S1x500, .f32⟩
  | .local _ .vmem, ⟨10, _⟩ => ⟨S500x1, .f32⟩
  | .local _ .vmem, ⟨11, _⟩ => ⟨S1x500, .f32⟩
  | .local _ .vmem, ⟨12, _⟩ => ⟨S500x500, .f32⟩
  | .local _ .vmem, ⟨13, _⟩ => ⟨S1x500, .f32⟩
  | .local _ .vmem, ⟨14, _⟩ => ⟨S500x500, .f32⟩
  | .local _ .vmem, ⟨15, _⟩ => ⟨S1x500, .f32⟩
  | .local _ .vmem, ⟨16, _⟩ => ⟨S500x500, .f32⟩
  | .local _ .vmem, ⟨17, _⟩ => ⟨S1x500, .f32⟩
  | .local _ .vmem, ⟨18, _⟩ => ⟨S1x500, .f32⟩
  | .local _ .vmem, ⟨19, _⟩ => ⟨S1x1, .f32⟩
  | .local _ .vmem, ⟨20, _⟩ => ⟨S64x1, .f32⟩
  | _, _ => ⟨S2048x64x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_v0 : Ref sig .tc := ⟨.hbm, 20, rfl⟩
abbrev main_v1 : Ref sig .tc := ⟨.hbm, 21, rfl⟩
abbrev main_v2 : Ref sig .tc := ⟨.hbm, 22, rfl⟩
abbrev main_v3 : Ref sig .tc := ⟨.hbm, 23, rfl⟩
abbrev main_v4 : Ref sig .tc := ⟨.hbm, 24, rfl⟩
abbrev main_v5 : Ref sig .tc := ⟨.hbm, 25, rfl⟩
abbrev main_v6 : Ref sig .tc := ⟨.hbm, 26, rfl⟩
abbrev main_v7 : Ref sig .tc := ⟨.hbm, 27, rfl⟩
abbrev main_v8 : Ref sig .tc := ⟨.hbm, 28, rfl⟩
abbrev main_v9 : Ref sig .tc := ⟨.hbm, 29, rfl⟩
abbrev main_v10 : Ref sig .tc := ⟨.hbm, 30, rfl⟩
abbrev main_v11 : Ref sig .tc := ⟨.hbm, 31, rfl⟩
abbrev main_v12 : Ref sig .tc := ⟨.hbm, 32, rfl⟩
abbrev main_v13 : Ref sig .tc := ⟨.hbm, 33, rfl⟩
abbrev main_v14 : Ref sig .tc := ⟨.hbm, 34, rfl⟩
abbrev main_v15 : Ref sig .tc := ⟨.hbm, 35, rfl⟩
abbrev main_v16 : Ref sig .tc := ⟨.hbm, 36, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg12_0 : Ref sig .tc := ⟨.vmem, 12, rfl⟩
abbrev cc0_stg13_0 : Ref sig .tc := ⟨.vmem, 13, rfl⟩
abbrev cc0_stg14_0 : Ref sig .tc := ⟨.vmem, 14, rfl⟩
abbrev cc0_stg15_0 : Ref sig .tc := ⟨.vmem, 15, rfl⟩
abbrev cc0_stg16_0 : Ref sig .tc := ⟨.vmem, 16, rfl⟩
abbrev cc0_stg17_0 : Ref sig .tc := ⟨.vmem, 17, rfl⟩
abbrev cc0_stg18_0 : Ref sig .tc := ⟨.vmem, 18, rfl⟩
abbrev cc0_stg19_0 : Ref sig .tc := ⟨.vmem, 19, rfl⟩
abbrev cc0_stg20_0 : Ref sig .tc := ⟨.vmem, 20, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12
abbrev cc0_sem13_0 : DmaSem sig := 13
abbrev cc0_sem14_0 : DmaSem sig := 14
abbrev cc0_sem15_0 : DmaSem sig := 15
abbrev cc0_sem16_0 : DmaSem sig := 16
abbrev cc0_sem17_0 : DmaSem sig := 17
abbrev cc0_sem18_0 : DmaSem sig := 18
abbrev cc0_sem19_0 : DmaSem sig := 19
abbrev cc0_sem20_0 : DmaSem sig := 20

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_17 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_18 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_19 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_20 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S64x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S64x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S64x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S64x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S500x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x500 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S500x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x500 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S500x1 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x500 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S500x1 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x500 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S500x500 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1x500 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S500x500 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S1x500 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 1 → Memref sig .tc .vmem S500x500 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]

abbrev stage0_17 : Fin 1 → Memref sig .tc .vmem S1x500 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false]

abbrev stage0_18 : Fin 1 → Memref sig .tc .vmem S1x500 .f32 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))
abbrev reads0_18 : Fin grid0.rank → Bool := ![false]

abbrev stage0_19 : Fin 1 → Memref sig .tc .vmem S1x1 .f32 := fun | 0 => Memref.whole cc0_stg19_0 | ⟨_ + 1, h⟩ => absurd h (Nat.not_lt.2 (Nat.le_add_left _ _))
abbrev sem0_19 : Fin 1 → DmaSem sig := fun | 0 => cc0_sem19_0 | ⟨_ + 1, h⟩ => absurd h (Nat.not_lt.2 (Nat.le_add_left _ _))
abbrev reads0_19 : Fin grid0.rank → Bool := ![false]

abbrev stage0_20 : Fin 1 → Memref sig .tc .vmem S64x1 .f32 := fun | 0 => Memref.whole cc0_stg20_0 | ⟨_ + 1, h⟩ => absurd h (Nat.not_lt.2 (Nat.le_add_left _ _))
abbrev sem0_20 : Fin 1 → DmaSem sig := fun | 0 => cc0_sem20_0 | ⟨_ + 1, h⟩ => absurd h (Nat.not_lt.2 (Nat.le_add_left _ _))
abbrev reads0_20 : Fin grid0.rank → Bool := ![false]

class Facts₀ : Prop where
  slices_S2048x64x128_S1x64x128_2047_0_0 : S2048x64x128.Slices ![2047, 0, 0] S1x64x128
  shapeCasts_S1x64x128_S64x128 : S1x64x128.ShapeCasts S64x128
  slices_S2048x64x1_S1x64x1_2047_0_0 : S2048x64x1.Slices ![2047, 0, 0] S1x64x1
  shapeCasts_S1x64x1_S64x1 : S1x64x1.ShapeCasts S64x1
  shapeCasts_S500_S1x500 : S500.ShapeCasts S1x500
  shapeCasts_S1_S1x1 : S1.ShapeCasts S1x1
  inb_S64x128_S64x128_0_0 : ∀ a, (![0, 0] : Fin 2 → Nat) a + S64x128.size a ≤ S64x128.size a
  h_S64x128 : 0 < S64x128.numel
  shapeCasts_S64x128_S64x128 : S64x128.ShapeCasts S64x128
  inb_S64x1_S64x1_0_0 : ∀ a, (![0, 0] : Fin 2 → Nat) a + S64x1.size a ≤ S64x1.size a
  h_S64x1 : 0 < S64x1.numel
  shapeCasts_S64x1_S64x1 : S64x1.ShapeCasts S64x1
  inb_S500x128_S500x128_0_0 : ∀ a, (![0, 0] : Fin 2 → Nat) a + S500x128.size a ≤ S500x128.size a
  h_S500x128 : 0 < S500x128.numel
  bitsLt_bf16_f32 : FTy.bits .bf16 < FTy.bits .f32
  inb_S1x500_S1x500_0_0 : ∀ a, (![0, 0] : Fin 2 → Nat) a + S1x500.size a ≤ S1x500.size a
  h_S1x500 : 0 < S1x500.numel
  shapeCasts_S1x500_S1x500 : S1x500.ShapeCasts S1x500
  broadcasts_S1x500_S64x500 : S1x500.Broadcasts S64x500
  inb_S500x1_S500x1_0_0 : ∀ a, (![0, 0] : Fin 2 → Nat) a + S500x1.size a ≤ S500x1.size a
  h_S500x1 : 0 < S500x1.numel
  inb_S500x500_S500x500_0_0 : ∀ a, (![0, 0] : Fin 2 → Nat) a + S500x500.size a ≤ S500x500.size a
  h_S500x500 : 0 < S500x500.numel
  reduces_S64x500_S64 : S64x500.Reduces [1] S64
  shapeCasts_S64_S64x1 : S64.ShapeCasts S64x1
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S64x1 : S1x1.Broadcasts S64x1
  dot_S64x128_S500x128_S64x500_1_1_0_0_n_n_wf : DotDims.WF S64x128 S500x128 S64x500 [1] [1] [0] [0] [] []
  dot_S64x1_S500x1_S64x500_1_1_0_0_n_n_wf : DotDims.WF S64x1 S500x1 S64x500 [1] [1] [0] [0] [] []
  dot_S64x500_S500x500_S64x500_1_1_0_0_n_n_wf : DotDims.WF S64x500 S500x500 S64x500 [1] [1] [0] [0] [] []
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S64x128.size a ≤ S64x128.size a
  hwx0_0 : ∀ i : grid0.Coords, EltTy.bits .f32 = 32 ∨ (Rect.block (s := S64x128) S64x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S64x128.size a ≤ S64x128.size a
  hwx0_1 : ∀ i : grid0.Coords, EltTy.bits .f32 = 32 ∨ (Rect.block (s := S64x128) S64x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S64x1.size a ≤ S64x1.size a
  hwx0_2 : ∀ i : grid0.Coords, EltTy.bits .f32 = 32 ∨ (Rect.block (s := S64x1) S64x1.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S64x1.size a ≤ S64x1.size a
  hwx0_3 : ∀ i : grid0.Coords, EltTy.bits .f32 = 32 ∨ (Rect.block (s := S64x1) S64x1.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S500x128.size a ≤ S500x128.size a
  hwx0_4 : ∀ i : grid0.Coords, EltTy.bits .f32 = 32 ∨ (Rect.block (s := S500x128) S500x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x500.size a ≤ S1x500.size a
  hwx0_5 : ∀ i : grid0.Coords, EltTy.bits .f32 = 32 ∨ (Rect.block (s := S1x500) S1x500.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S500x128.size a ≤ S500x128.size a
  hwx0_6 : ∀ i : grid0.Coords, EltTy.bits .f32 = 32 ∨ (Rect.block (s := S500x128) S500x128.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1x500.size a ≤ S1x500.size a
  hwx0_7 : ∀ i : grid0.Coords, EltTy.bits .f32 = 32 ∨ (Rect.block (s := S1x500) S1x500.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S500x1.size a ≤ S500x1.size a
  hwx0_8 : ∀ i : grid0.Coords, EltTy.bits .f32 = 32 ∨ (Rect.block (s := S500x1) S500x1.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S1x500.size a ≤ S1x500.size a
  hwx0_9 : ∀ i : grid0.Coords, EltTy.bits .f32 = 32 ∨ (Rect.block (s := S1x500) S1x500.size (cc0_transform_9 i) (hinb0_9 i)).WholeWords (EltTy.packing .f32)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S500x1.size a ≤ S500x1.size a
  hwx0_10 : ∀ i : grid0.Coords, EltTy.bits .f32 = 32 ∨ (Rect.block (s := S500x1) S500x1.size (cc0_transform_10 i) (hinb0_10 i)).WholeWords (EltTy.packing .f32)
  hstage0_11 : ∀ j, (stage0_11 j).IsWhole
  nbuf0_11 : grid0.bufCount reads0_11 true = 1
  hreads0_11 : ∀ i i' : grid0.Coords, (∀ a, reads0_11 a = true → i a = i' a) → cc0_transform_11 i = cc0_transform_11 i'
  hinb0_11 : ∀ (i : grid0.Coords) a, (cc0_transform_11 i a + 1) * S1x500.size a ≤ S1x500.size a
  hwx0_11 : ∀ i : grid0.Coords, EltTy.bits .f32 = 32 ∨ (Rect.block (s := S1x500) S1x500.size (cc0_transform_11 i) (hinb0_11 i)).WholeWords (EltTy.packing .f32)
  hstage0_12 : ∀ j, (stage0_12 j).IsWhole
  nbuf0_12 : grid0.bufCount reads0_12 true = 1
  hreads0_12 : ∀ i i' : grid0.Coords, (∀ a, reads0_12 a = true → i a = i' a) → cc0_transform_12 i = cc0_transform_12 i'
  hinb0_12 : ∀ (i : grid0.Coords) a, (cc0_transform_12 i a + 1) * S500x500.size a ≤ S500x500.size a
  hwx0_12 : ∀ i : grid0.Coords, EltTy.bits .f32 = 32 ∨ (Rect.block (s := S500x500) S500x500.size (cc0_transform_12 i) (hinb0_12 i)).WholeWords (EltTy.packing .f32)
  hstage0_13 : ∀ j, (stage0_13 j).IsWhole
  nbuf0_13 : grid0.bufCount reads0_13 true = 1
  hreads0_13 : ∀ i i' : grid0.Coords, (∀ a, reads0_13 a = true → i a = i' a) → cc0_transform_13 i = cc0_transform_13 i'
  hinb0_13 : ∀ (i : grid0.Coords) a, (cc0_transform_13 i a + 1) * S1x500.size a ≤ S1x500.size a
  hwx0_13 : ∀ i : grid0.Coords, EltTy.bits .f32 = 32 ∨ (Rect.block (s := S1x500) S1x500.size (cc0_transform_13 i) (hinb0_13 i)).WholeWords (EltTy.packing .f32)
  hstage0_14 : ∀ j, (stage0_14 j).IsWhole
  nbuf0_14 : grid0.bufCount reads0_14 true = 1
  hreads0_14 : ∀ i i' : grid0.Coords, (∀ a, reads0_14 a = true → i a = i' a) → cc0_transform_14 i = cc0_transform_14 i'
  hinb0_14 : ∀ (i : grid0.Coords) a, (cc0_transform_14 i a + 1) * S500x500.size a ≤ S500x500.size a
  hwx0_14 : ∀ i : grid0.Coords, EltTy.bits .f32 = 32 ∨ (Rect.block (s := S500x500) S500x500.size (cc0_transform_14 i) (hinb0_14 i)).WholeWords (EltTy.packing .f32)
  hstage0_15 : ∀ j, (stage0_15 j).IsWhole
  nbuf0_15 : grid0.bufCount reads0_15 true = 1
  hreads0_15 : ∀ i i' : grid0.Coords, (∀ a, reads0_15 a = true → i a = i' a) → cc0_transform_15 i = cc0_transform_15 i'
  hinb0_15 : ∀ (i : grid0.Coords) a, (cc0_transform_15 i a + 1) * S1x500.size a ≤ S1x500.size a
  hwx0_15 : ∀ i : grid0.Coords, EltTy.bits .f32 = 32 ∨ (Rect.block (s := S1x500) S1x500.size (cc0_transform_15 i) (hinb0_15 i)).WholeWords (EltTy.packing .f32)
  hstage0_16 : ∀ j, (stage0_16 j).IsWhole
  nbuf0_16 : grid0.bufCount reads0_16 true = 1
  hreads0_16 : ∀ i i' : grid0.Coords, (∀ a, reads0_16 a = true → i a = i' a) → cc0_transform_16 i = cc0_transform_16 i'
  hinb0_16 : ∀ (i : grid0.Coords) a, (cc0_transform_16 i a + 1) * S500x500.size a ≤ S500x500.size a
  hwx0_16 : ∀ i : grid0.Coords, EltTy.bits .f32 = 32 ∨ (Rect.block (s := S500x500) S500x500.size (cc0_transform_16 i) (hinb0_16 i)).WholeWords (EltTy.packing .f32)
  hstage0_17 : ∀ j, (stage0_17 j).IsWhole
  nbuf0_17 : grid0.bufCount reads0_17 true = 1
  hreads0_17 : ∀ i i' : grid0.Coords, (∀ a, reads0_17 a = true → i a = i' a) → cc0_transform_17 i = cc0_transform_17 i'
  hinb0_17 : ∀ (i : grid0.Coords) a, (cc0_transform_17 i a + 1) * S1x500.size a ≤ S1x500.size a
  hwx0_17 : ∀ i : grid0.Coords, EltTy.bits .f32 = 32 ∨ (Rect.block (s := S1x500) S1x500.size (cc0_transform_17 i) (hinb0_17 i)).WholeWords (EltTy.packing .f32)
  hstage0_18 : ∀ j, (stage0_18 j).IsWhole
  nbuf0_18 : grid0.bufCount reads0_18 true = 1
  hreads0_18 : ∀ i i' : grid0.Coords, (∀ a, reads0_18 a = true → i a = i' a) → cc0_transform_18 i = cc0_transform_18 i'
  hinb0_18 : ∀ (i : grid0.Coords) a, (cc0_transform_18 i a + 1) * S1x500.size a ≤ S1x500.size a
  hwx0_18 : ∀ i : grid0.Coords, EltTy.bits .f32 = 32 ∨ (Rect.block (s := S1x500) S1x500.size (cc0_transform_18 i) (hinb0_18 i)).WholeWords (EltTy.packing .f32)
  hstage0_19 : ∀ j, (stage0_19 j).IsWhole
  nbuf0_19 : grid0.bufCount reads0_19 true = 1
  hreads0_19 : ∀ i i' : grid0.Coords, (∀ a, reads0_19 a = true → i a = i' a) → cc0_transform_19 i = cc0_transform_19 i'
  hinb0_19 : ∀ (i : grid0.Coords) a, (cc0_transform_19 i a + 1) * S1x1.size a ≤ S1x1.size a
  hwx0_19 : ∀ i : grid0.Coords, EltTy.bits .f32 = 32 ∨ (Rect.block (s := S1x1) S1x1.size (cc0_transform_19 i) (hinb0_19 i)).WholeWords (EltTy.packing .f32)
  hstage0_20 : ∀ j, (stage0_20 j).IsWhole
  nbuf0_20 : grid0.bufCount reads0_20 true = 1
  hreads0_20 : ∀ i i' : grid0.Coords, (∀ a, reads0_20 a = true → i a = i' a) → cc0_transform_20 i = cc0_transform_20 i'
  hinb0_20 : ∀ (i : grid0.Coords) a, (cc0_transform_20 i a + 1) * S64x1.size a ≤ S64x1.size a
  hwx0_20 : ∀ i : grid0.Coords, EltTy.bits .f32 = 32 ∨ (Rect.block (s := S64x1) S64x1.size (cc0_transform_20 i) (hinb0_20 i)).WholeWords (EltTy.packing .f32)

variable [Facts₀]

def dot_S64x128_S500x128_S64x500_1_1_0_0_n_n : DotDims S64x128 S500x128 S64x500 where
  lhsContracting := [1]
  rhsContracting := [1]
  lhsNonContracting := [0]
  rhsNonContracting := [0]
  lhsBatch := []
  rhsBatch := []
  wf := dot_S64x128_S500x128_S64x500_1_1_0_0_n_n_wf
def dot_S64x1_S500x1_S64x500_1_1_0_0_n_n : DotDims S64x1 S500x1 S64x500 where
  lhsContracting := [1]
  rhsContracting := [1]
  lhsNonContracting := [0]
  rhsNonContracting := [0]
  lhsBatch := []
  rhsBatch := []
  wf := dot_S64x1_S500x1_S64x500_1_1_0_0_n_n_wf
def dot_S64x500_S500x500_S64x500_1_1_0_0_n_n : DotDims S64x500 S500x500 S64x500 where
  lhsContracting := [1]
  rhsContracting := [1]
  lhsNonContracting := [0]
  rhsNonContracting := [0]
  lhsBatch := []
  rhsBatch := []
  wf := dot_S64x500_S500x500_S64x500_1_1_0_0_n_n_wf

abbrev win0_0 : Pipeline.Window sig grid0 :=
  Pipeline.Window.ofSpec (Memref.whole main_v1) S64x128.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_v3) S64x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v5) S64x1.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v7) S64x1.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S500x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v8) S1x500.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg6) S500x128.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v9) S1x500.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_arg8) S500x1.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v10) S1x500.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_arg10) S500x1.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_v11) S1x500.size cc0_transform_11 reads0_11 false true 1 stage0_11 sem0_11
    hrank0 hreads0_11 hinb0_11 nbuf0_11 (Memref.isWhole_whole _) hwx0_11 hstage0_11

abbrev win0_12 : Pipeline.Window sig grid0 :=
  Pipeline.Window.ofSpec (Memref.whole main_arg12) S500x500.size cc0_transform_12 reads0_12 false true 1 stage0_12 sem0_12
    hrank0 hreads0_12 hinb0_12 nbuf0_12 (Memref.isWhole_whole _) hwx0_12 hstage0_12

abbrev win0_13 : Pipeline.Window sig grid0 :=
  Pipeline.Window.ofSpec (Memref.whole main_v12) S1x500.size cc0_transform_13 reads0_13 false true 1 stage0_13 sem0_13
    hrank0 hreads0_13 hinb0_13 nbuf0_13 (Memref.isWhole_whole _) hwx0_13 hstage0_13

abbrev win0_14 : Pipeline.Window sig grid0 :=
  Pipeline.Window.ofSpec (Memref.whole main_arg14) S500x500.size cc0_transform_14 reads0_14 false true 1 stage0_14 sem0_14
    hrank0 hreads0_14 hinb0_14 nbuf0_14 (Memref.isWhole_whole _) hwx0_14 hstage0_14

abbrev win0_15 : Pipeline.Window sig grid0 :=
  Pipeline.Window.ofSpec (Memref.whole main_v13) S1x500.size cc0_transform_15 reads0_15 false true 1 stage0_15 sem0_15
    hrank0 hreads0_15 hinb0_15 nbuf0_15 (Memref.isWhole_whole _) hwx0_15 hstage0_15

abbrev win0_16 : Pipeline.Window sig grid0 :=
  Pipeline.Window.ofSpec (Memref.whole main_arg16) S500x500.size cc0_transform_16 reads0_16 false true 1 stage0_16 sem0_16
    hrank0 hreads0_16 hinb0_16 nbuf0_16 (Memref.isWhole_whole _) hwx0_16 hstage0_16

abbrev win0_17 : Pipeline.Window sig grid0 :=
  Pipeline.Window.ofSpec (Memref.whole main_v14) S1x500.size cc0_transform_17 reads0_17 false true 1 stage0_17 sem0_17
    hrank0 hreads0_17 hinb0_17 nbuf0_17 (Memref.isWhole_whole _) hwx0_17 hstage0_17

abbrev win0_18 : Pipeline.Window sig grid0 :=
  Pipeline.Window.ofSpec (Memref.whole main_arg18) S1x500.size cc0_transform_18 reads0_18 false true 1 stage0_18 sem0_18
    hrank0 hreads0_18 hinb0_18 nbuf0_18 (Memref.isWhole_whole _) hwx0_18 hstage0_18

abbrev win0_19 : Pipeline.Window sig grid0 :=
  Pipeline.Window.ofSpec (Memref.whole main_v15) S1x1.size cc0_transform_19 reads0_19 false true 1 stage0_19 sem0_19
    hrank0 hreads0_19 hinb0_19 nbuf0_19 (Memref.isWhole_whole _) hwx0_19 hstage0_19

abbrev win0_20 : Pipeline.Window sig grid0 :=
  Pipeline.Window.ofSpec (Memref.whole main_v16) S64x1.size cc0_transform_20 reads0_20 true true 1 stage0_20 sem0_20
    hrank0 hreads0_20 hinb0_20 nbuf0_20 (Memref.isWhole_whole _) hwx0_20 hstage0_20

abbrev win0 : Fin 21 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | 13 => win0_13 | 14 => win0_14 | 15 => win0_15 | 16 => win0_16 | 17 => win0_17 | 18 => win0_18 | 19 => win0_19 | 20 => win0_20 | ⟨_ + 21, h⟩ => absurd h (Nat.not_lt.2 (Nat.le_add_left _ _))
abbrev spec0 : Fin 21 → Pipeline.WinSpec sig grid0.rank := fun w => (win0 w).toWinSpec

class Facts : Prop extends Facts₀ where

variable [Facts]
-- ==== ReferenceIdeal.lean ====
abbrev S2048x64x128 : Shape := ⟨3, ![2048, 64, 128]⟩
abbrev S2048x64x1 : Shape := ⟨3, ![2048, 64, 1]⟩
abbrev S500x128 : Shape := ⟨2, ![500, 128]⟩
abbrev S500 : Shape := ⟨1, ![500]⟩
abbrev S500x1 : Shape := ⟨2, ![500, 1]⟩
abbrev S500x500 : Shape := ⟨2, ![500, 500]⟩
abbrev S1x500 : Shape := ⟨2, ![1, 500]⟩
abbrev S1 : Shape := ⟨1, ![1]⟩
abbrev S2048x64x500 : Shape := ⟨3, ![2048, 64, 500]⟩
abbrev S1x1x500 : Shape := ⟨3, ![1, 1, 500]⟩
abbrev S_ : Shape := ⟨0, ![]⟩
abbrev S1x64x500 : Shape := ⟨3, ![1, 64, 500]⟩
abbrev S64x500 : Shape := ⟨2, ![64, 500]⟩
abbrev S64x1 : Shape := ⟨2, ![64, 1]⟩
abbrev S1x1 : Shape := ⟨2, ![1, 1]⟩

abbrev nBuf : Space → Nat
  | .hbm => 80
  | .vmem => 0
  | .smem => 0
  | _ => 0

abbrev bufTy : (tb : Table) → Fin (tcTables nBuf tb) → BufTy
  | .hbm, ⟨0, _⟩ => ⟨S2048x64x128, .f32⟩
  | .hbm, ⟨1, _⟩ => ⟨S2048x64x128, .f32⟩
  | .hbm, ⟨2, _⟩ => ⟨S2048x64x1, .f32⟩
  | .hbm, ⟨3, _⟩ => ⟨S2048x64x1, .f32⟩
  | .hbm, ⟨4, _⟩ => ⟨S500x128, .f32⟩
  | .hbm, ⟨5, _⟩ => ⟨S500, .f32⟩
  | .hbm, ⟨6, _⟩ => ⟨S500x128, .f32⟩
  | .hbm, ⟨7, _⟩ => ⟨S500, .f32⟩
  | .hbm, ⟨8, _⟩ => ⟨S500x1, .f32⟩
  | .hbm, ⟨9, _⟩ => ⟨S500, .f32⟩
  | .hbm, ⟨10, _⟩ => ⟨S500x1, .f32⟩
  | .hbm, ⟨11, _⟩ => ⟨S500, .f32⟩
  | .hbm, ⟨12, _⟩ => ⟨S500x500, .f32⟩
  | .hbm, ⟨13, _⟩ => ⟨S500, .f32⟩
  | .hbm, ⟨14, _⟩ => ⟨S500x500, .f32⟩
  | .hbm, ⟨15, _⟩ => ⟨S500, .f32⟩
  | .hbm, ⟨16, _⟩ => ⟨S500x500, .f32⟩
  | .hbm, ⟨17, _⟩ => ⟨S500, .f32⟩
  | .hbm, ⟨18, _⟩ => ⟨S1x500, .f32⟩
  | .hbm, ⟨19, _⟩ => ⟨S1, .f32⟩
  | .hbm, ⟨20, _⟩ => ⟨S2048x64x500, .f32⟩
  | .hbm, ⟨21, _⟩ => ⟨S1x1x500, .f32⟩
  | .hbm, ⟨22, _⟩ => ⟨S2048x64x500, .f32⟩
  | .hbm, ⟨23, _⟩ => ⟨S2048x64x500, .f32⟩
  | .hbm, ⟨24, _⟩ => ⟨S2048x64x500, .f32⟩
  | .hbm, ⟨25, _⟩ => ⟨S2048x64x500, .f32⟩
  | .hbm, ⟨26, _⟩ => ⟨S1x1x500, .f32⟩
  | .hbm, ⟨27, _⟩ => ⟨S2048x64x500, .f32⟩
  | .hbm, ⟨28, _⟩ => ⟨S2048x64x500, .f32⟩
  | .hbm, ⟨29, _⟩ => ⟨S2048x64x500, .f32⟩
  | .hbm, ⟨30, _⟩ => ⟨S2048x64x500, .f32⟩
  | .hbm, ⟨31, _⟩ => ⟨S1x1x500, .f32⟩
  | .hbm, ⟨32, _⟩ => ⟨S2048x64x500, .f32⟩
  | .hbm, ⟨33, _⟩ => ⟨S2048x64x500, .f32⟩
  | .hbm, ⟨34, _⟩ => ⟨S2048x64x500, .f32⟩
  | .hbm, ⟨35, _⟩ => ⟨S2048x64x500, .f32⟩
  | .hbm, ⟨36, _⟩ => ⟨S1x1x500, .f32⟩
  | .hbm, ⟨37, _⟩ => ⟨S2048x64x500, .f32⟩
  | .hbm, ⟨38, _⟩ => ⟨S2048x64x500, .f32⟩
  | .hbm, ⟨39, _⟩ => ⟨S2048x64x500, .f32⟩
  | .hbm, ⟨40, _⟩ => ⟨S1x1x500, .f32⟩
  | .hbm, ⟨41, _⟩ => ⟨S2048x64x500, .f32⟩
  | .hbm, ⟨42, _⟩ => ⟨S2048x64x500, .f32⟩
  | .hbm, ⟨43, _⟩ => ⟨S_, .f32⟩
  | .hbm, ⟨44, _⟩ => ⟨S2048x64x500, .f32⟩
  | .hbm, ⟨45, _⟩ => ⟨S2048x64x500, .i1⟩
  | .hbm, ⟨46, _⟩ => ⟨S_, .f32⟩
  | .hbm, ⟨47, _⟩ => ⟨S2048x64x500, .f32⟩
  | .hbm, ⟨48, _⟩ => ⟨S2048x64x500, .f32⟩
  | .hbm, ⟨49, _⟩ => ⟨S2048x64x500, .f32⟩
  | .hbm, ⟨50, _⟩ => ⟨S2048x64x500, .f32⟩
  | .hbm, ⟨51, _⟩ => ⟨S1x1x500, .f32⟩
  | .hbm, ⟨52, _⟩ => ⟨S2048x64x500, .f32⟩
  | .hbm, ⟨53, _⟩ => ⟨S2048x64x500, .f32⟩
  | .hbm, ⟨54, _⟩ => ⟨S_, .f32⟩
  | .hbm, ⟨55, _⟩ => ⟨S2048x64x500, .f32⟩
  | .hbm, ⟨56, _⟩ => ⟨S2048x64x500, .i1⟩
  | .hbm, ⟨57, _⟩ => ⟨S_, .f32⟩
  | .hbm, ⟨58, _⟩ => ⟨S2048x64x500, .f32⟩
  | .hbm, ⟨59, _⟩ => ⟨S2048x64x500, .f32⟩
  | .hbm, ⟨60, _⟩ => ⟨S2048x64x500, .f32⟩
  | .hbm, ⟨61, _⟩ => ⟨S2048x64x500, .f32⟩
  | .hbm, ⟨62, _⟩ => ⟨S1x1x500, .f32⟩
  | .hbm, ⟨63, _⟩ => ⟨S2048x64x500, .f32⟩
  | .hbm, ⟨64, _⟩ => ⟨S2048x64x500, .f32⟩
  | .hbm, ⟨65, _⟩ => ⟨S1x64x500, .f32⟩
  | .hbm, ⟨66, _⟩ => ⟨S64x500, .f32⟩
  | .hbm, ⟨67, _⟩ => ⟨S500x1, .f32⟩
  | .hbm, ⟨68, _⟩ => ⟨S64x1, .f32⟩
  | .hbm, ⟨69, _⟩ => ⟨S1x1, .f32⟩
  | .hbm, ⟨70, _⟩ => ⟨S64x1, .f32⟩
  | .hbm, ⟨71, _⟩ => ⟨S64x1, .f32⟩
  | .hbm, ⟨72, _⟩ => ⟨S64x1, .f32⟩
  | .hbm, ⟨73, _⟩ => ⟨S64x1, .f32⟩
  | .hbm, ⟨74, _⟩ => ⟨S_, .f32⟩
  | .hbm, ⟨75, _⟩ => ⟨S64x1, .f32⟩
  | .hbm, ⟨76, _⟩ => ⟨S64x1, .f32⟩
  | .hbm, ⟨77, _⟩ => ⟨S_, .f32⟩
  | .hbm, ⟨78, _⟩ => ⟨S64x1, .f32⟩
  | .hbm, ⟨79, _⟩ => ⟨S64x1, .f32⟩
  | _, _ => ⟨S2048x64x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_v0 : Ref sig .tc := ⟨.hbm, 20, rfl⟩
abbrev main_v1 : Ref sig .tc := ⟨.hbm, 21, rfl⟩
abbrev main_v2 : Ref sig .tc := ⟨.hbm, 22, rfl⟩
abbrev main_v3 : Ref sig .tc := ⟨.hbm, 23, rfl⟩
abbrev main_v4 : Ref sig .tc := ⟨.hbm, 24, rfl⟩
abbrev main_v5 : Ref sig .tc := ⟨.hbm, 25, rfl⟩
abbrev main_v6 : Ref sig .tc := ⟨.hbm, 26, rfl⟩
abbrev main_v7 : Ref sig .tc := ⟨.hbm, 27, rfl⟩
abbrev main_v8 : Ref sig .tc := ⟨.hbm, 28, rfl⟩
abbrev main_v9 : Ref sig .tc := ⟨.hbm, 29, rfl⟩
abbrev main_v10 : Ref sig .tc := ⟨.hbm, 30, rfl⟩
abbrev main_v11 : Ref sig .tc := ⟨.hbm, 31, rfl⟩
abbrev main_v12 : Ref sig .tc := ⟨.hbm, 32, rfl⟩
abbrev main_v13 : Ref sig .tc := ⟨.hbm, 33, rfl⟩
abbrev main_v14 : Ref sig .tc := ⟨.hbm, 34, rfl⟩
abbrev main_v15 : Ref sig .tc := ⟨.hbm, 35, rfl⟩
abbrev main_v16 : Ref sig .tc := ⟨.hbm, 36, rfl⟩
abbrev main_v17 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_cst : Ref sig .tc := ⟨.hbm, 43, rfl⟩
abbrev main_v23 : Ref sig .tc := ⟨.hbm, 44, rfl⟩
abbrev main_v24 : Ref sig .tc := ⟨.hbm, 45, rfl⟩
abbrev main_cst_0 : Ref sig .tc := ⟨.hbm, 46, rfl⟩
abbrev main_v25 : Ref sig .tc := ⟨.hbm, 47, rfl⟩
abbrev main_v26 : Ref sig .tc := ⟨.hbm, 48, rfl⟩
abbrev main_v27 : Ref sig .tc := ⟨.hbm, 49, rfl⟩
abbrev main_v28 : Ref sig .tc := ⟨.hbm, 50, rfl⟩
abbrev main_v29 : Ref sig .tc := ⟨.hbm, 51, rfl⟩
abbrev main_v30 : Ref sig .tc := ⟨.hbm, 52, rfl⟩
abbrev main_v31 : Ref sig .tc := ⟨.hbm, 53, rfl⟩
abbrev main_cst_1 : Ref sig .tc := ⟨.hbm, 54, rfl⟩
abbrev main_v32 : Ref sig .tc := ⟨.hbm, 55, rfl⟩
abbrev main_v33 : Ref sig .tc := ⟨.hbm, 56, rfl⟩
abbrev main_cst_2 : Ref sig .tc := ⟨.hbm, 57, rfl⟩
abbrev main_v34 : Ref sig .tc := ⟨.hbm, 58, rfl⟩
abbrev main_v35 : Ref sig .tc := ⟨.hbm, 59, rfl⟩
abbrev main_v36 : Ref sig .tc := ⟨.hbm, 60, rfl⟩
abbrev main_v37 : Ref sig .tc := ⟨.hbm, 61, rfl⟩
abbrev main_v38 : Ref sig .tc := ⟨.hbm, 62, rfl⟩
abbrev main_v39 : Ref sig .tc := ⟨.hbm, 63, rfl⟩
abbrev main_v40 : Ref sig .tc := ⟨.hbm, 64, rfl⟩
abbrev main_v41 : Ref sig .tc := ⟨.hbm, 65, rfl⟩
abbrev main_v42 : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩
abbrev main_v46 : Ref sig .tc := ⟨.hbm, 70, rfl⟩
abbrev main_v47 : Ref sig .tc := ⟨.hbm, 71, rfl⟩
abbrev main_v48 : Ref sig .tc := ⟨.hbm, 72, rfl⟩
abbrev main_v49 : Ref sig .tc := ⟨.hbm, 73, rfl⟩
abbrev main_cst_3 : Ref sig .tc := ⟨.hbm, 74, rfl⟩
abbrev main_v50 : Ref sig .tc := ⟨.hbm, 75, rfl⟩
abbrev main_v51 : Ref sig .tc := ⟨.hbm, 76, rfl⟩
abbrev main_cst_4 : Ref sig .tc := ⟨.hbm, 77, rfl⟩
abbrev main_v52 : Ref sig .tc := ⟨.hbm, 78, rfl⟩
abbrev main_v53 : Ref sig .tc := ⟨.hbm, 79, rfl⟩

abbrev nD : Nat := 1
abbrev τ : Topo := Topo.v7x

variable {F : FTy → Type} [FloatOps F]

class Facts₀ : Prop where
  bcast_S500_S1x1x500_2 : S500.BroadcastsInDim S1x1x500 (![2] : Fin 1 → Fin S1x1x500.rank)
  bcast_S1x1x500_S2048x64x500_0_1_2 : S1x1x500.BroadcastsInDim S2048x64x500 (![0, 1, 2] : Fin 3 → Fin S2048x64x500.rank)
  bcast_S_S2048x64x500 : S_.BroadcastsInDim S2048x64x500 (![] : Fin 0 → Fin S2048x64x500.rank)
  slices_S2048x64x500_S1x64x500_2047_0_0 : S2048x64x500.Slices ![2047, 0, 0] S1x64x500
  shapeCasts_S1x64x500_S64x500 : S1x64x500.ShapeCasts S64x500
  transposes_S1x500_S500x1_1_0 : S1x500.Transposes [1, 0] S500x1
  bcast_S1_S1x1_1 : S1.BroadcastsInDim S1x1 (![1] : Fin 1 → Fin S1x1.rank)
  bcast_S1x1_S64x1_0_1 : S1x1.BroadcastsInDim S64x1 (![0, 1] : Fin 2 → Fin S64x1.rank)
  bcast_S_S64x1 : S_.BroadcastsInDim S64x1 (![] : Fin 0 → Fin S64x1.rank)
  dot_S2048x64x128_S500x128_S2048x64x500_2_1_01_0_n_n_wf : DotDims.WF S2048x64x128 S500x128 S2048x64x500 [2] [1] [0, 1] [0] [] []
  dot_S2048x64x1_S500x1_S2048x64x500_2_1_01_0_n_n_wf : DotDims.WF S2048x64x1 S500x1 S2048x64x500 [2] [1] [0, 1] [0] [] []
  dot_S2048x64x500_S500x500_S2048x64x500_2_1_01_0_n_n_wf : DotDims.WF S2048x64x500 S500x500 S2048x64x500 [2] [1] [0, 1] [0] [] []
  dot_S64x500_S500x1_S64x1_1_0_0_1_n_n_wf : DotDims.WF S64x500 S500x1 S64x1 [1] [0] [0] [1] [] []

variable [Facts₀]

def dot_S2048x64x128_S500x128_S2048x64x500_2_1_01_0_n_n : DotDims S2048x64x128 S500x128 S2048x64x500 where
  lhsContracting := [2]
  rhsContracting := [1]
  lhsNonContracting := [0, 1]
  rhsNonContracting := [0]
  lhsBatch := []
  rhsBatch := []
  wf := dot_S2048x64x128_S500x128_S2048x64x500_2_1_01_0_n_n_wf
def dot_S2048x64x1_S500x1_S2048x64x500_2_1_01_0_n_n : DotDims S2048x64x1 S500x1 S2048x64x500 where
  lhsContracting := [2]
  rhsContracting := [1]
  lhsNonContracting := [0, 1]
  rhsNonContracting := [0]
  lhsBatch := []
  rhsBatch := []
  wf := dot_S2048x64x1_S500x1_S2048x64x500_2_1_01_0_n_n_wf
def dot_S2048x64x500_S500x500_S2048x64x500_2_1_01_0_n_n : DotDims S2048x64x500 S500x500 S2048x64x500 where
  lhsContracting := [2]
  rhsContracting := [1]
  lhsNonContracting := [0, 1]
  rhsNonContracting := [0]
  lhsBatch := []
  rhsBatch := []
  wf := dot_S2048x64x500_S500x500_S2048x64x500_2_1_01_0_n_n_wf
def dot_S64x500_S500x1_S64x1_1_0_0_1_n_n : DotDims S64x500 S500x1 S64x1 where
  lhsContracting := [1]
  rhsContracting := [0]
  lhsNonContracting := [0]
  rhsNonContracting := [1]
  lhsBatch := []
  rhsBatch := []
  wf := dot_S64x500_S500x1_S64x1_1_0_0_1_n_n_wf

class Facts : Prop extends Facts₀ where

variable [Facts]
-- ==== Proof.KernelArray.lean ====
/-
  From the one grid point's block to the result array.

  The grid has a single point, and every window's block is its whole array: each block index is zero on both axes, so
  the element of a block at y sits at y in the array. Hence the body's loads are the twenty arrays the region finds,
  whole; the block the point writes back is the stored block; and that one block covers the 64×1 result array. The
  array after the run is therefore the body's stored block as a function of those twenty arrays.
-/
import proofs.«125282_j60756607369781_2_alg».proof.Proof.KernelValue
import Idealize.ShloMosaic.PureOps.Ideal

noncomputable section

namespace Cert.KernelIdeal.Whole

open Cert.KernelIdeal Cert.KernelIdeal.Gen Idealize.ShloMosaic Idealize.ShloMosaic.TcCoe Idealize.SL.Sem
open Idealize.ShloMosaic.Pipeline (Dat)

variable (m : (ℓ : Loc nD τ sig) → Buf (Elt Ideal) ℓ) (ρ : Dev nD → PrngReg)

/-! ## Each input block is its whole array -/

theorem blk0 (c : Dev nD) (t : Fin cfg0.N) (y : S64x128.Idx) :
    (iblk m c 0 t : Vec Ideal S64x128 .f32) y = (V m c main_v1 : S64x128.Idx → Elt Ideal .f32) y := by
  obtain rfl := fin_N0 t
  unfold iblk
  rw [View.read_apply]
  show V m c main_v1 _ = V m c main_v1 y
  congr 1
  funext a
  apply Fin.ext
  match a with
  | ⟨0, _⟩ => show win0_0.index t0_0 0 * 64 + 1 * (y 0).val = (y 0).val; rw [show win0_0.index t0_0 0 = 0 from by decide +kernel]; omega
  | ⟨1, _⟩ => show win0_0.index t0_0 1 * 128 + 1 * (y 1).val = (y 1).val; rw [show win0_0.index t0_0 1 = 0 from by decide +kernel]; omega

theorem blk1 (c : Dev nD) (t : Fin cfg0.N) (y : S64x128.Idx) :
    (iblk m c 1 t : Vec Ideal S64x128 .f32) y = (V m c main_v3 : S64x128.Idx → Elt Ideal .f32) y := by
  obtain rfl := fin_N0 t
  unfold iblk
  rw [View.read_apply]
  show V m c main_v3 _ = V m c main_v3 y
  congr 1
  funext a
  apply Fin.ext
  match a with
  | ⟨0, _⟩ => show win0_1.index t0_0 0 * 64 + 1 * (y 0).val = (y 0).val; rw [show win0_1.index t0_0 0 = 0 from by decide +kernel]; omega
  | ⟨1, _⟩ => show win0_1.index t0_0 1 * 128 + 1 * (y 1).val = (y 1).val; rw [show win0_1.index t0_0 1 = 0 from by decide +kernel]; omega

theorem blk2 (c : Dev nD) (t : Fin cfg0.N) (y : S64x1.Idx) :
    (iblk m c 2 t : Vec Ideal S64x1 .f32) y = (V m c main_v5 : S64x1.Idx → Elt Ideal .f32) y := by
  obtain rfl := fin_N0 t
  unfold iblk
  rw [View.read_apply]
  show V m c main_v5 _ = V m c main_v5 y
  congr 1
  funext a
  apply Fin.ext
  match a with
  | ⟨0, _⟩ => show win0_2.index t0_0 0 * 64 + 1 * (y 0).val = (y 0).val; rw [show win0_2.index t0_0 0 = 0 from by decide +kernel]; omega
  | ⟨1, _⟩ => show win0_2.index t0_0 1 * 1 + 1 * (y 1).val = (y 1).val; rw [show win0_2.index t0_0 1 = 0 from by decide +kernel]; omega

theorem blk3 (c : Dev nD) (t : Fin cfg0.N) (y : S64x1.Idx) :
    (iblk m c 3 t : Vec Ideal S64x1 .f32) y = (V m c main_v7 : S64x1.Idx → Elt Ideal .f32) y := by
  obtain rfl := fin_N0 t
  unfold iblk
  rw [View.read_apply]
  show V m c main_v7 _ = V m c main_v7 y
  congr 1
  funext a
  apply Fin.ext
  match a with
  | ⟨0, _⟩ => show win0_3.index t0_0 0 * 64 + 1 * (y 0).val = (y 0).val; rw [show win0_3.index t0_0 0 = 0 from by decide +kernel]; omega
  | ⟨1, _⟩ => show win0_3.index t0_0 1 * 1 + 1 * (y 1).val = (y 1).val; rw [show win0_3.index t0_0 1 = 0 from by decide +kernel]; omega

theorem blk4 (c : Dev nD) (t : Fin cfg0.N) (y : S500x128.Idx) :
    (iblk m c 4 t : Vec Ideal S500x128 .f32) y = (V m c main_arg4 : S500x128.Idx → Elt Ideal .f32) y := by
  obtain rfl := fin_N0 t
  unfold iblk
  rw [View.read_apply]
  show V m c main_arg4 _ = V m c main_arg4 y
  congr 1
  funext a
  apply Fin.ext
  match a with
  | ⟨0, _⟩ => show win0_4.index t0_0 0 * 500 + 1 * (y 0).val = (y 0).val; rw [show win0_4.index t0_0 0 = 0 from by decide +kernel]; omega
  | ⟨1, _⟩ => show win0_4.index t0_0 1 * 128 + 1 * (y 1).val = (y 1).val; rw [show win0_4.index t0_0 1 = 0 from by decide +kernel]; omega

theorem blk5 (c : Dev nD) (t : Fin cfg0.N) (y : S1x500.Idx) :
    (iblk m c 5 t : Vec Ideal S1x500 .f32) y = (V m c main_v8 : S1x500.Idx → Elt Ideal .f32) y := by
  obtain rfl := fin_N0 t
  unfold iblk
  rw [View.read_apply]
  show V m c main_v8 _ = V m c main_v8 y
  congr 1
  funext a
  apply Fin.ext
  match a with
  | ⟨0, _⟩ => show win0_5.index t0_0 0 * 1 + 1 * (y 0).val = (y 0).val; rw [show win0_5.index t0_0 0 = 0 from by decide +kernel]; omega
  | ⟨1, _⟩ => show win0_5.index t0_0 1 * 500 + 1 * (y 1).val = (y 1).val; rw [show win0_5.index t0_0 1 = 0 from by decide +kernel]; omega

theorem blk6 (c : Dev nD) (t : Fin cfg0.N) (y : S500x128.Idx) :
    (iblk m c 6 t : Vec Ideal S500x128 .f32) y = (V m c main_arg6 : S500x128.Idx → Elt Ideal .f32) y := by
  obtain rfl := fin_N0 t
  unfold iblk
  rw [View.read_apply]
  show V m c main_arg6 _ = V m c main_arg6 y
  congr 1
  funext a
  apply Fin.ext
  match a with
  | ⟨0, _⟩ => show win0_6.index t0_0 0 * 500 + 1 * (y 0).val = (y 0).val; rw [show win0_6.index t0_0 0 = 0 from by decide +kernel]; omega
  | ⟨1, _⟩ => show win0_6.index t0_0 1 * 128 + 1 * (y 1).val = (y 1).val; rw [show win0_6.index t0_0 1 = 0 from by decide +kernel]; omega

theorem blk7 (c : Dev nD) (t : Fin cfg0.N) (y : S1x500.Idx) :
    (iblk m c 7 t : Vec Ideal S1x500 .f32) y = (V m c main_v9 : S1x500.Idx → Elt Ideal .f32) y := by
  obtain rfl := fin_N0 t
  unfold iblk
  rw [View.read_apply]
  show V m c main_v9 _ = V m c main_v9 y
  congr 1
  funext a
  apply Fin.ext
  match a with
  | ⟨0, _⟩ => show win0_7.index t0_0 0 * 1 + 1 * (y 0).val = (y 0).val; rw [show win0_7.index t0_0 0 = 0 from by decide +kernel]; omega
  | ⟨1, _⟩ => show win0_7.index t0_0 1 * 500 + 1 * (y 1).val = (y 1).val; rw [show win0_7.index t0_0 1 = 0 from by decide +kernel]; omega

theorem blk8 (c : Dev nD) (t : Fin cfg0.N) (y : S500x1.Idx) :
    (iblk m c 8 t : Vec Ideal S500x1 .f32) y = (V m c main_arg8 : S500x1.Idx → Elt Ideal .f32) y := by
  obtain rfl := fin_N0 t
  unfold iblk
  rw [View.read_apply]
  show V m c main_arg8 _ = V m c main_arg8 y
  congr 1
  funext a
  apply Fin.ext
  match a with
  | ⟨0, _⟩ => show win0_8.index t0_0 0 * 500 + 1 * (y 0).val = (y 0).val; rw [show win0_8.index t0_0 0 = 0 from by decide +kernel]; omega
  | ⟨1, _⟩ => show win0_8.index t0_0 1 * 1 + 1 * (y 1).val = (y 1).val; rw [show win0_8.index t0_0 1 = 0 from by decide +kernel]; omega

theorem blk9 (c : Dev nD) (t : Fin cfg0.N) (y : S1x500.Idx) :
    (iblk m c 9 t : Vec Ideal S1x500 .f32) y = (V m c main_v10 : S1x500.Idx → Elt Ideal .f32) y := by
  obtain rfl := fin_N0 t
  unfold iblk
  rw [View.read_apply]
  show V m c main_v10 _ = V m c main_v10 y
  congr 1
  funext a
  apply Fin.ext
  match a with
  | ⟨0, _⟩ => show win0_9.index t0_0 0 * 1 + 1 * (y 0).val = (y 0).val; rw [show win0_9.index t0_0 0 = 0 from by decide +kernel]; omega
  | ⟨1, _⟩ => show win0_9.index t0_0 1 * 500 + 1 * (y 1).val = (y 1).val; rw [show win0_9.index t0_0 1 = 0 from by decide +kernel]; omega

theorem blk10 (c : Dev nD) (t : Fin cfg0.N) (y : S500x1.Idx) :
    (iblk m c 10 t : Vec Ideal S500x1 .f32) y = (V m c main_arg10 : S500x1.Idx → Elt Ideal .f32) y := by
  obtain rfl := fin_N0 t
  unfold iblk
  rw [View.read_apply]
  show V m c main_arg10 _ = V m c main_arg10 y
  congr 1
  funext a
  apply Fin.ext
  match a with
  | ⟨0, _⟩ => show win0_10.index t0_0 0 * 500 + 1 * (y 0).val = (y 0).val; rw [show win0_10.index t0_0 0 = 0 from by decide +kernel]; omega
  | ⟨1, _⟩ => show win0_10.index t0_0 1 * 1 + 1 * (y 1).val = (y 1).val; rw [show win0_10.index t0_0 1 = 0 from by decide +kernel]; omega

theorem blk11 (c : Dev nD) (t : Fin cfg0.N) (y : S1x500.Idx) :
    (iblk m c 11 t : Vec Ideal S1x500 .f32) y = (V m c main_v11 : S1x500.Idx → Elt Ideal .f32) y := by
  obtain rfl := fin_N0 t
  unfold iblk
  rw [View.read_apply]
  show V m c main_v11 _ = V m c main_v11 y
  congr 1
  funext a
  apply Fin.ext
  match a with
  | ⟨0, _⟩ => show win0_11.index t0_0 0 * 1 + 1 * (y 0).val = (y 0).val; rw [show win0_11.index t0_0 0 = 0 from by decide +kernel]; omega
  | ⟨1, _⟩ => show win0_11.index t0_0 1 * 500 + 1 * (y 1).val = (y 1).val; rw [show win0_11.index t0_0 1 = 0 from by decide +kernel]; omega

theorem blk12 (c : Dev nD) (t : Fin cfg0.N) (y : S500x500.Idx) :
    (iblk m c 12 t : Vec Ideal S500x500 .f32) y = (V m c main_arg12 : S500x500.Idx → Elt Ideal .f32) y := by
  obtain rfl := fin_N0 t
  unfold iblk
  rw [View.read_apply]
  show V m c main_arg12 _ = V m c main_arg12 y
  congr 1
  funext a
  apply Fin.ext
  match a with
  | ⟨0, _⟩ => show win0_12.index t0_0 0 * 500 + 1 * (y 0).val = (y 0).val; rw [show win0_12.index t0_0 0 = 0 from by decide +kernel]; omega
  | ⟨1, _⟩ => show win0_12.index t0_0 1 * 500 + 1 * (y 1).val = (y 1).val; rw [show win0_12.index t0_0 1 = 0 from by decide +kernel]; omega

theorem blk13 (c : Dev nD) (t : Fin cfg0.N) (y : S1x500.Idx) :
    (iblk m c 13 t : Vec Ideal S1x500 .f32) y = (V m c main_v12 : S1x500.Idx → Elt Ideal .f32) y := by
  obtain rfl := fin_N0 t
  unfold iblk
  rw [View.read_apply]
  show V m c main_v12 _ = V m c main_v12 y
  congr 1
  funext a
  apply Fin.ext
  match a with
  | ⟨0, _⟩ => show win0_13.index t0_0 0 * 1 + 1 * (y 0).val = (y 0).val; rw [show win0_13.index t0_0 0 = 0 from by decide +kernel]; omega
  | ⟨1, _⟩ => show win0_13.index t0_0 1 * 500 + 1 * (y 1).val = (y 1).val; rw [show win0_13.index t0_0 1 = 0 from by decide +kernel]; omega

theorem blk14 (c : Dev nD) (t : Fin cfg0.N) (y : S500x500.Idx) :
    (iblk m c 14 t : Vec Ideal S500x500 .f32) y = (V m c main_arg14 : S500x500.Idx → Elt Ideal .f32) y := by
  obtain rfl := fin_N0 t
  unfold iblk
  rw [View.read_apply]
  show V m c main_arg14 _ = V m c main_arg14 y
  congr 1
  funext a
  apply Fin.ext
  match a with
  | ⟨0, _⟩ => show win0_14.index t0_0 0 * 500 + 1 * (y 0).val = (y 0).val; rw [show win0_14.index t0_0 0 = 0 from by decide +kernel]; omega
  | ⟨1, _⟩ => show win0_14.index t0_0 1 * 500 + 1 * (y 1).val = (y 1).val; rw [show win0_14.index t0_0 1 = 0 from by decide +kernel]; omega

theorem blk15 (c : Dev nD) (t : Fin cfg0.N) (y : S1x500.Idx) :
    (iblk m c 15 t : Vec Ideal S1x500 .f32) y = (V m c main_v13 : S1x500.Idx → Elt Ideal .f32) y := by
  obtain rfl := fin_N0 t
  unfold iblk
  rw [View.read_apply]
  show V m c main_v13 _ = V m c main_v13 y
  congr 1
  funext a
  apply Fin.ext
  match a with
  | ⟨0, _⟩ => show win0_15.index t0_0 0 * 1 + 1 * (y 0).val = (y 0).val; rw [show win0_15.index t0_0 0 = 0 from by decide +kernel]; omega
  | ⟨1, _⟩ => show win0_15.index t0_0 1 * 500 + 1 * (y 1).val = (y 1).val; rw [show win0_15.index t0_0 1 = 0 from by decide +kernel]; omega

theorem blk16 (c : Dev nD) (t : Fin cfg0.N) (y : S500x500.Idx) :
    (iblk m c 16 t : Vec Ideal S500x500 .f32) y = (V m c main_arg16 : S500x500.Idx → Elt Ideal .f32) y := by
  obtain rfl := fin_N0 t
  unfold iblk
  rw [View.read_apply]
  show V m c main_arg16 _ = V m c main_arg16 y
  congr 1
  funext a
  apply Fin.ext
  match a with
  | ⟨0, _⟩ => show win0_16.index t0_0 0 * 500 + 1 * (y 0).val = (y 0).val; rw [show win0_16.index t0_0 0 = 0 from by decide +kernel]; omega
  | ⟨1, _⟩ => show win0_16.index t0_0 1 * 500 + 1 * (y 1).val = (y 1).val; rw [show win0_16.index t0_0 1 = 0 from by decide +kernel]; omega

theorem blk17 (c : Dev nD) (t : Fin cfg0.N) (y : S1x500.Idx) :
    (iblk m c 17 t : Vec Ideal S1x500 .f32) y = (V m c main_v14 : S1x500.Idx → Elt Ideal .f32) y := by
  obtain rfl := fin_N0 t
  unfold iblk
  rw [View.read_apply]
  show V m c main_v14 _ = V m c main_v14 y
  congr 1
  funext a
  apply Fin.ext
  match a with
  | ⟨0, _⟩ => show win0_17.index t0_0 0 * 1 + 1 * (y 0).val = (y 0).val; rw [show win0_17.index t0_0 0 = 0 from by decide +kernel]; omega
  | ⟨1, _⟩ => show win0_17.index t0_0 1 * 500 + 1 * (y 1).val = (y 1).val; rw [show win0_17.index t0_0 1 = 0 from by decide +kernel]; omega

theorem blk18 (c : Dev nD) (t : Fin cfg0.N) (y : S1x500.Idx) :
    (iblk m c 18 t : Vec Ideal S1x500 .f32) y = (V m c main_arg18 : S1x500.Idx → Elt Ideal .f32) y := by
  obtain rfl := fin_N0 t
  unfold iblk
  rw [View.read_apply]
  show V m c main_arg18 _ = V m c main_arg18 y
  congr 1
  funext a
  apply Fin.ext
  match a with
  | ⟨0, _⟩ => show win0_18.index t0_0 0 * 1 + 1 * (y 0).val = (y 0).val; rw [show win0_18.index t0_0 0 = 0 from by decide +kernel]; omega
  | ⟨1, _⟩ => show win0_18.index t0_0 1 * 500 + 1 * (y 1).val = (y 1).val; rw [show win0_18.index t0_0 1 = 0 from by decide +kernel]; omega

theorem blk19 (c : Dev nD) (t : Fin cfg0.N) (y : S1x1.Idx) :
    (iblk m c 19 t : Vec Ideal S1x1 .f32) y = (V m c main_v15 : S1x1.Idx → Elt Ideal .f32) y := by
  obtain rfl := fin_N0 t
  unfold iblk
  rw [View.read_apply]
  show V m c main_v15 _ = V m c main_v15 y
  congr 1
  funext a
  apply Fin.ext
  match a with
  | ⟨0, _⟩ => show win0_19.index t0_0 0 * 1 + 1 * (y 0).val = (y 0).val; rw [show win0_19.index t0_0 0 = 0 from by decide +kernel]; omega
  | ⟨1, _⟩ => show win0_19.index t0_0 1 * 1 + 1 * (y 1).val = (y 1).val; rw [show win0_19.index t0_0 1 = 0 from by decide +kernel]; omega

/-! ## The stored block as a function of the loaded arrays -/

theorem hz : (![0, 0] : Fin 2 → Nat) = fun _ => 0 := funext fun a => by fin_cases a <;> rfl

/-- The body's one store goes through the whole 64×1 rectangle, and its loads through whole rectangles. -/
theorem out_eq (x0 : Vec Ideal S64x128 .f32) (x1 : Vec Ideal S64x128 .f32) (x2 : Vec Ideal S64x1 .f32) (x3 : Vec Ideal S64x1 .f32) (x4 : Vec Ideal S500x128 .f32) (x5 : Vec Ideal S1x500 .f32) (x6 : Vec Ideal S500x128 .f32) (x7 : Vec Ideal S1x500 .f32) (x8 : Vec Ideal S500x1 .f32) (x9 : Vec Ideal S1x500 .f32) (x10 : Vec Ideal S500x1 .f32) (x11 : Vec Ideal S1x500 .f32) (x12 : Vec Ideal S500x500 .f32) (x13 : Vec Ideal S1x500 .f32) (x14 : Vec Ideal S500x500 .f32) (x15 : Vec Ideal S1x500 .f32) (x16 : Vec Ideal S500x500 .f32) (x17 : Vec Ideal S1x500 .f32) (x18 : Vec Ideal S1x500 .f32) (x19 : Vec Ideal S1x1 .f32) (y : S64x1.Idx) :
    out0_20 x0 x1 x2 x3 x4 x5 x6 x7 x8 x9 x10 x11 x12 x13 x14 x15 x16 x17 x18 x19 y = ValueP.E20 x3 x0 x1 x2 x4 x5 x6 x7 x8 x9 x10 x11 x12 x13 x14 x15 x16 x17 x18 x19 y := by
  unfold out0_20
  simp only [View.ld_unit_zero (S := S64x128) hz, View.ld_unit_zero (S := S64x1) hz, View.ld_unit_zero (S := S500x128) hz, View.ld_unit_zero (S := S1x500) hz, View.ld_unit_zero (S := S500x1) hz, View.ld_unit_zero (S := S500x500) hz, View.ld_unit_zero (S := S1x1) hz]
  exact ValueP.canon20_eq x3 x0 x1 x2 x4 x5 x6 x7 x8 x9 x10 x11 x12 x13 x14 x15 x16 x17 x18 x19 y

/-- The result array as a function of the arrays the region finds. -/
def kout (c : Dev nD) : S64x1.Idx → Elt Ideal .f32 :=
  ValueP.E20 (V m c main_v7) (V m c main_v1) (V m c main_v3) (V m c main_v5) (V m c main_arg4) (V m c main_v8) (V m c main_arg6) (V m c main_v9) (V m c main_arg8) (V m c main_v10) (V m c main_arg10) (V m c main_v11) (V m c main_arg12) (V m c main_v12) (V m c main_arg14) (V m c main_v13) (V m c main_arg16) (V m c main_v14) (V m c main_arg18) (V m c main_v15)

/-- What the one grid point writes back is the whole of `kout`. -/
theorem flushed_eq (c : Dev nD) (t : Fin cfg0.N) :
    (dats m 0 c).flushed 20 t = ((cfg0.win 20).blk t).view.read (Elt Ideal) (kout m c) := by
  rw [ValueP.flushed20]
  funext j
  show out0_20 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) j = kout m c (((cfg0.win 20).blk t).view.emb j)
  have e : ((cfg0.win 20).blk t).view.emb j = j := by
    obtain rfl := fin_N0 t
    funext a
    apply Fin.ext
    match a with
    | ⟨0, _⟩ => show win0_20.index t0_0 0 * 64 + 1 * (j 0).val = (j 0).val; rw [show win0_20.index t0_0 0 = 0 from by decide +kernel]; omega
    | ⟨1, _⟩ => show win0_20.index t0_0 1 * 1 + 1 * (j 1).val = (j 1).val; rw [show win0_20.index t0_0 1 = 0 from by decide +kernel]; omega
  rw [e]
  refine (out_eq (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) j).trans ?_
  have h0 : (iblk m c 0 t : Vec Ideal S64x128 .f32) = V m c main_v1 := funext (blk0 m c t)
  have h1 : (iblk m c 1 t : Vec Ideal S64x128 .f32) = V m c main_v3 := funext (blk1 m c t)
  have h2 : (iblk m c 2 t : Vec Ideal S64x1 .f32) = V m c main_v5 := funext (blk2 m c t)
  have h3 : (iblk m c 3 t : Vec Ideal S64x1 .f32) = V m c main_v7 := funext (blk3 m c t)
  have h4 : (iblk m c 4 t : Vec Ideal S500x128 .f32) = V m c main_arg4 := funext (blk4 m c t)
  have h5 : (iblk m c 5 t : Vec Ideal S1x500 .f32) = V m c main_v8 := funext (blk5 m c t)
  have h6 : (iblk m c 6 t : Vec Ideal S500x128 .f32) = V m c main_arg6 := funext (blk6 m c t)
  have h7 : (iblk m c 7 t : Vec Ideal S1x500 .f32) = V m c main_v9 := funext (blk7 m c t)
  have h8 : (iblk m c 8 t : Vec Ideal S500x1 .f32) = V m c main_arg8 := funext (blk8 m c t)
  have h9 : (iblk m c 9 t : Vec Ideal S1x500 .f32) = V m c main_v10 := funext (blk9 m c t)
  have h10 : (iblk m c 10 t : Vec Ideal S500x1 .f32) = V m c main_arg10 := funext (blk10 m c t)
  have h11 : (iblk m c 11 t : Vec Ideal S1x500 .f32) = V m c main_v11 := funext (blk11 m c t)
  have h12 : (iblk m c 12 t : Vec Ideal S500x500 .f32) = V m c main_arg12 := funext (blk12 m c t)
  have h13 : (iblk m c 13 t : Vec Ideal S1x500 .f32) = V m c main_v12 := funext (blk13 m c t)
  have h14 : (iblk m c 14 t : Vec Ideal S500x500 .f32) = V m c main_arg14 := funext (blk14 m c t)
  have h15 : (iblk m c 15 t : Vec Ideal S1x500 .f32) = V m c main_v13 := funext (blk15 m c t)
  have h16 : (iblk m c 16 t : Vec Ideal S500x500 .f32) = V m c main_arg16 := funext (blk16 m c t)
  have h17 : (iblk m c 17 t : Vec Ideal S1x500 .f32) = V m c main_v14 := funext (blk17 m c t)
  have h18 : (iblk m c 18 t : Vec Ideal S1x500 .f32) = V m c main_arg18 := funext (blk18 m c t)
  have h19 : (iblk m c 19 t : Vec Ideal S1x1 .f32) = V m c main_v15 := funext (blk19 m c t)
  unfold kout
  rw [h0, h1, h2, h3, h4, h5, h6, h7, h8, h9, h10, h11, h12, h13, h14, h15, h16, h17, h18, h19]

/-- The one block covers the result array, so the array ends holding `kout`. -/
theorem final (c : Dev nD) : (dats m 0 c).arrAt 20 cfg0.N = kout m c :=
  (dats m 0 c).arrAt_eq_of_cover 20 (kout m c) (fun t _ => flushed_eq m c t) fun i =>
    ⟨t0_0, flush0_20 t0_0, by
      show i ∈ ((View.whole main_v16).slice (win0_20.rect t0_0)).set
      rw [View.set_slice_whole, Rect.mem_set_unit]
      intro a
      have h0 : (i 0 : Nat) < 64 := (i 0).isLt
      have h1 : (i 1 : Nat) < 1 := (i 1).isLt
      match a with
      | ⟨0, _⟩ => show win0_20.index t0_0 0 * win0_20.size 0 ≤ (i 0 : Nat) ∧ (i 0 : Nat) < win0_20.index t0_0 0 * win0_20.size 0 + win0_20.xsize (grid0.coords t0_0) 0
                  rw [show win0_20.index t0_0 0 * win0_20.size 0 = 0 from by decide +kernel, show win0_20.xsize (grid0.coords t0_0) 0 = 64 from by decide +kernel]; omega
      | ⟨1, _⟩ => show win0_20.index t0_0 1 * win0_20.size 1 ≤ (i 1 : Nat) ∧ (i 1 : Nat) < win0_20.index t0_0 1 * win0_20.size 1 + win0_20.xsize (grid0.coords t0_0) 1
                  rw [show win0_20.index t0_0 1 * win0_20.size 1 = 0 from by decide +kernel, show win0_20.xsize (grid0.coords t0_0) 1 = 1 from by decide +kernel]; omega⟩

end Cert.KernelIdeal.Whole

end
-- ==== Proof.Spec.lean ====
/-
  The function both programs compute, written on coordinates over the extended reals.

  The network reads one time step of four input streams (two of width 128, two of width 1) for a batch of 64 rows.
  Each stream is multiplied by the transpose of its weight matrix (500 rows) and its bias (500 entries) is added;
  the four embeddings are summed in the order  p·Wpᵀ + bp + v·Wvᵀ + bv + d·Wdᵀ + bd + s·Wsᵀ + bs.  Two hidden
  layers  x ↦ lrelu (x·Wᵀ + b)  follow, then one affine layer, then the score of row r:
  logistic ((Σ_k x(r, k) · w3(k)) + b3).
  The leaky rectifier compares with the literal 0 and scales the negative side by the single-precision literal
  nearest 0.01; both programs carry the same two literals, so they are kept as bit patterns and never evaluated.
  Every sum is a finite sum over the contracted coordinate; no law of the extended reals beyond the
  commutative-monoid structure of + is used anywhere, so no finiteness of the inputs is needed.
-/
import Idealize.ShloMosaic.PureOps.Ideal
import Idealize.ShloMosaic.PureOps.Ideal.Laws
import Idealize.ShloMosaic.Lib.ValueIdx

noncomputable section

open scoped BigOperators

namespace Cert.Spec

open Idealize.ShloMosaic

/-- A two-axis array as a function of its two coordinates. -/
def mat {a b : ℕ} (X : (⟨2, ![a, b]⟩ : Shape).Idx → EReal) : Fin a → Fin b → EReal := fun r k => X (ValueIdx.ix2 r k)

/-- The one row of a 1×b array. -/
def row {b : ℕ} (B : (⟨2, ![1, b]⟩ : Shape).Idx → EReal) : Fin b → EReal := fun c => B (ValueIdx.ix2 (0 : Fin 1) c)

/-- A one-axis array as a function of its coordinate. -/
def vec {b : ℕ} (B : (⟨1, ![b]⟩ : Shape).Idx → EReal) : Fin b → EReal := fun c => B (ValueIdx.ix1 c)

/-- Time step t of a three-axis array, as a function of the other two coordinates. -/
def slab {n a b : ℕ} (X : (⟨3, ![n, a, b]⟩ : Shape).Idx → EReal) (t : Fin n) : Fin a → Fin b → EReal :=
  fun r k => X (ValueIdx.ix3 t r k)

/-- The leaky rectifier: x where x > 0, the literal slope times x elsewhere. -/
def lrelu (x : EReal) : EReal :=
  Scalar.select (FloatOps.cmpf (F := Ideal) (φ := .f32) .ogt x (FloatOps.ofBits (F := Ideal) .f32 0x00000000#32)) x
    (FloatOps.ofBits (F := Ideal) .f32 0x3C23D70A#32 * x)

/-- Row r of x against row c of w: the entry (r, c) of x·wᵀ. -/
def dot {K : ℕ} (x : Fin 64 → Fin K → EReal) (w : Fin 500 → Fin K → EReal) (r : Fin 64) (c : Fin 500) : EReal :=
  ∑ k : Fin K, x r k * w c k

/-- The sum of the four embeddings, in the programs' order of additions. -/
def embed (p v : Fin 64 → Fin 128 → EReal) (d s : Fin 64 → Fin 1 → EReal)
    (Wp : Fin 500 → Fin 128 → EReal) (bp : Fin 500 → EReal) (Wv : Fin 500 → Fin 128 → EReal) (bv : Fin 500 → EReal)
    (Wd : Fin 500 → Fin 1 → EReal) (bd : Fin 500 → EReal) (Ws : Fin 500 → Fin 1 → EReal) (bs : Fin 500 → EReal)
    (r : Fin 64) (c : Fin 500) : EReal :=
  dot p Wp r c + bp c + dot v Wv r c + bv c + dot d Wd r c + bd c + dot s Ws r c + bs c

/-- An affine layer: x·Wᵀ + b. -/
def affine (x : Fin 64 → Fin 500 → EReal) (W : Fin 500 → Fin 500 → EReal) (b : Fin 500 → EReal)
    (r : Fin 64) (c : Fin 500) : EReal :=
  dot x W r c + b c

/-- A hidden layer: the leaky rectifier of an affine layer. -/
def hidden (x : Fin 64 → Fin 500 → EReal) (W : Fin 500 → Fin 500 → EReal) (b : Fin 500 → EReal)
    (r : Fin 64) (c : Fin 500) : EReal :=
  lrelu (affine x W b r c)

/-- The score of row r: the logistic function of the row's product with the one output weight row, plus its bias. -/
def score (x : Fin 64 → Fin 500 → EReal) (w3 : Fin 500 → EReal) (b3 : EReal) (r : Fin 64) : EReal :=
  Ideal.logistic ((∑ k : Fin 500, x r k * w3 k) + b3)

/-- The whole network on one time step. -/
def net (p v : Fin 64 → Fin 128 → EReal) (d s : Fin 64 → Fin 1 → EReal)
    (Wp : Fin 500 → Fin 128 → EReal) (bp : Fin 500 → EReal) (Wv : Fin 500 → Fin 128 → EReal) (bv : Fin 500 → EReal)
    (Wd : Fin 500 → Fin 1 → EReal) (bd : Fin 500 → EReal) (Ws : Fin 500 → Fin 1 → EReal) (bs : Fin 500 → EReal)
    (W1 : Fin 500 → Fin 500 → EReal) (b1 : Fin 500 → EReal) (W2 : Fin 500 → Fin 500 → EReal) (b2 : Fin 500 → EReal)
    (Wi : Fin 500 → Fin 500 → EReal) (bi : Fin 500 → EReal) (w3 : Fin 500 → EReal) (b3 : EReal) (r : Fin 64) : EReal :=
  score (affine (hidden (hidden (embed p v d s Wp bp Wv bv Wd bd Ws bs) W1 b1) W2 b2) Wi bi) w3 b3 r

end Cert.Spec

end
-- ==== Proof.KernelHost.lean ====
/-
  The arrays the region finds, in terms of the program's arguments.

  Before the region the host takes time step 2047 of each of the four input streams (a slice of extent one along the first
  axis, then the unit axis dropped), views each length-500 bias as a 1×500 row and the length-1 bias as a 1×1 array, and
  passes the weight matrices as they are. Read on coordinates: the (r, k) entry of a sliced stream is the argument's entry
  (2047, r, k); the (0, c) entry of a bias row is the bias vector's entry c.
-/
import proofs.«125282_j60756607369781_2_alg».proof.Proof.Gen.KernelIdeal.Frame
import proofs.«125282_j60756607369781_2_alg».proof.Proof.Spec
import Idealize.ShloMosaic.Lib.ValueLayout
import Idealize.ShloMosaic.Lib.ValueIdx
import Idealize.ShloMosaic.Lib.Pipeline.Value
import Idealize.ShloMosaic.Lib.StableHlo.Run

noncomputable section

namespace Cert.KernelIdeal.Host

open Cert.KernelIdeal Cert.KernelIdeal.Gen Idealize.ShloMosaic Idealize.ShloMosaic.TcCoe Idealize.SL.Sem Idealize.ShloMosaic.ValueIdx Cert.Spec

variable (m : (ℓ : Loc nD τ sig) → Buf (Elt Ideal) ℓ) (c : Dev nD)

/-! ## The host operations' terms -/

theorem main_v1_eq : (V m c main_v1 : S64x128.Idx → EReal)
    = shapeCast S64x128 (extractStridedSlice S1x64x128 ![2047, 0, 0] (m ((c : Thread nD τ).loc main_arg0)) slices_S2048x64x128_S1x64x128_2047_0_0) shapeCasts_S1x64x128_S64x128 := by
  dsimp only [Gen.V, Gen.hostOps0]; after_results; rfl

theorem main_v3_eq : (V m c main_v3 : S64x128.Idx → EReal)
    = shapeCast S64x128 (extractStridedSlice S1x64x128 ![2047, 0, 0] (m ((c : Thread nD τ).loc main_arg1)) slices_S2048x64x128_S1x64x128_2047_0_0) shapeCasts_S1x64x128_S64x128 := by
  dsimp only [Gen.V, Gen.hostOps0]; after_results; rfl

theorem main_v5_eq : (V m c main_v5 : S64x1.Idx → EReal)
    = shapeCast S64x1 (extractStridedSlice S1x64x1 ![2047, 0, 0] (m ((c : Thread nD τ).loc main_arg2)) slices_S2048x64x1_S1x64x1_2047_0_0) shapeCasts_S1x64x1_S64x1 := by
  dsimp only [Gen.V, Gen.hostOps0]; after_results; rfl

theorem main_v7_eq : (V m c main_v7 : S64x1.Idx → EReal)
    = shapeCast S64x1 (extractStridedSlice S1x64x1 ![2047, 0, 0] (m ((c : Thread nD τ).loc main_arg3)) slices_S2048x64x1_S1x64x1_2047_0_0) shapeCasts_S1x64x1_S64x1 := by
  dsimp only [Gen.V, Gen.hostOps0]; after_results; rfl

theorem main_v8_eq : (V m c main_v8 : S1x500.Idx → EReal) = shapeCast S1x500 (m ((c : Thread nD τ).loc main_arg5)) shapeCasts_S500_S1x500 := by
  dsimp only [Gen.V, Gen.hostOps0]; after_results; rfl

theorem main_v9_eq : (V m c main_v9 : S1x500.Idx → EReal) = shapeCast S1x500 (m ((c : Thread nD τ).loc main_arg7)) shapeCasts_S500_S1x500 := by
  dsimp only [Gen.V, Gen.hostOps0]; after_results; rfl

theorem main_v10_eq : (V m c main_v10 : S1x500.Idx → EReal) = shapeCast S1x500 (m ((c : Thread nD τ).loc main_arg9)) shapeCasts_S500_S1x500 := by
  dsimp only [Gen.V, Gen.hostOps0]; after_results; rfl

theorem main_v11_eq : (V m c main_v11 : S1x500.Idx → EReal) = shapeCast S1x500 (m ((c : Thread nD τ).loc main_arg11)) shapeCasts_S500_S1x500 := by
  dsimp only [Gen.V, Gen.hostOps0]; after_results; rfl

theorem main_v12_eq : (V m c main_v12 : S1x500.Idx → EReal) = shapeCast S1x500 (m ((c : Thread nD τ).loc main_arg13)) shapeCasts_S500_S1x500 := by
  dsimp only [Gen.V, Gen.hostOps0]; after_results; rfl

theorem main_v13_eq : (V m c main_v13 : S1x500.Idx → EReal) = shapeCast S1x500 (m ((c : Thread nD τ).loc main_arg15)) shapeCasts_S500_S1x500 := by
  dsimp only [Gen.V, Gen.hostOps0]; after_results; rfl

theorem main_v14_eq : (V m c main_v14 : S1x500.Idx → EReal) = shapeCast S1x500 (m ((c : Thread nD τ).loc main_arg17)) shapeCasts_S500_S1x500 := by
  dsimp only [Gen.V, Gen.hostOps0]; after_results; rfl

theorem main_v15_eq : (V m c main_v15 : S1x1.Idx → EReal) = shapeCast S1x1 (m ((c : Thread nD τ).loc main_arg19)) shapeCasts_S1_S1x1 := by
  dsimp only [Gen.V, Gen.hostOps0]; after_results; rfl

/-! ## Read on coordinates -/

/-- Time step 2047 of a stream of width K. -/
theorem lastStep {K : ℕ} (X : (⟨3, ![2048, 64, K]⟩ : Shape).Idx → EReal)
    (hs : (⟨3, ![2048, 64, K]⟩ : Shape).Slices ![2047, 0, 0] ⟨3, ![1, 64, K]⟩)
    (hc : (⟨3, ![1, 64, K]⟩ : Shape).ShapeCasts ⟨2, ![64, K]⟩) :
    mat (shapeCast ⟨2, ![64, K]⟩ (extractStridedSlice ⟨3, ![1, 64, K]⟩ ![2047, 0, 0] X hs) hc) = slab X (2047 : Fin 2048) := by
  funext r k
  refine (shapeCast_1ab_ab_apply _ hc r k).trans ?_
  refine extractStridedSlice_apply ![2047, 0, 0] X hs (ix3 (0 : Fin 1) r k) (ix3 (2047 : Fin 2048) r k) fun a => ?_
  match a with
  | ⟨0, _⟩ => rfl
  | ⟨1, _⟩ => show r.val = 0 + r.val; omega
  | ⟨2, _⟩ => show k.val = 0 + k.val; omega

/-- A bias vector viewed as a row. -/
theorem asRow {n : ℕ} (B : (⟨1, ![n]⟩ : Shape).Idx → EReal) (h : (⟨1, ![n]⟩ : Shape).ShapeCasts ⟨2, ![1, n]⟩) :
    row (shapeCast ⟨2, ![1, n]⟩ B h) = vec B :=
  funext fun c => shapeCast_a_1a_apply B h (0 : Fin 1) c

theorem p_mat : mat (V m c main_v1 : S64x128.Idx → EReal) = slab (m ((c : Thread nD τ).loc main_arg0)) (2047 : Fin 2048) := by
  rw [main_v1_eq]; exact lastStep _ _ _
theorem v_mat : mat (V m c main_v3 : S64x128.Idx → EReal) = slab (m ((c : Thread nD τ).loc main_arg1)) (2047 : Fin 2048) := by
  rw [main_v3_eq]; exact lastStep _ _ _
theorem d_mat : mat (V m c main_v5 : S64x1.Idx → EReal) = slab (m ((c : Thread nD τ).loc main_arg2)) (2047 : Fin 2048) := by
  rw [main_v5_eq]; exact lastStep _ _ _
theorem s_mat : mat (V m c main_v7 : S64x1.Idx → EReal) = slab (m ((c : Thread nD τ).loc main_arg3)) (2047 : Fin 2048) := by
  rw [main_v7_eq]; exact lastStep _ _ _

theorem bp_row : row (V m c main_v8 : S1x500.Idx → EReal) = vec (m ((c : Thread nD τ).loc main_arg5)) := by
  rw [main_v8_eq]; exact asRow _ _
theorem bv_row : row (V m c main_v9 : S1x500.Idx → EReal) = vec (m ((c : Thread nD τ).loc main_arg7)) := by
  rw [main_v9_eq]; exact asRow _ _
theorem bd_row : row (V m c main_v10 : S1x500.Idx → EReal) = vec (m ((c : Thread nD τ).loc main_arg9)) := by
  rw [main_v10_eq]; exact asRow _ _
theorem bs_row : row (V m c main_v11 : S1x500.Idx → EReal) = vec (m ((c : Thread nD τ).loc main_arg11)) := by
  rw [main_v11_eq]; exact asRow _ _
theorem b1_row : row (V m c main_v12 : S1x500.Idx → EReal) = vec (m ((c : Thread nD τ).loc main_arg13)) := by
  rw [main_v12_eq]; exact asRow _ _
theorem b2_row : row (V m c main_v13 : S1x500.Idx → EReal) = vec (m ((c : Thread nD τ).loc main_arg15)) := by
  rw [main_v13_eq]; exact asRow _ _
theorem bi_row : row (V m c main_v14 : S1x500.Idx → EReal) = vec (m ((c : Thread nD τ).loc main_arg17)) := by
  rw [main_v14_eq]; exact asRow _ _

theorem b3_at : (V m c main_v15 : S1x1.Idx → EReal) (ix2 (0 : Fin 1) (0 : Fin 1)) = (m ((c : Thread nD τ).loc main_arg19)) (ix1 (0 : Fin 1)) := by
  rw [main_v15_eq]; exact shapeCast_a_1a_apply _ _ (0 : Fin 1) (0 : Fin 1)

end Cert.KernelIdeal.Host

end
-- ==== Proof.LibTransposedDot.lean ====
/-
  A matrix product whose right operand is contracted on its LAST axis, M×K by N×K (the left operand times the transpose
  of the right), at the ideal values, read at an index as the sum over the contracted coordinate of the products of the
  operands' entries: (x · wᵀ)(r, c) = Σ_k x(r, k) · w(c, k) — for the vector unit's matmul into the zero accumulator and
  for the host's dot_general alike. The contraction has one axis, of extent K: its index is that one coordinate; the left
  operand's index at (r, c) and k is (r, k), the right operand's is (c, k).
-/
import Idealize.ShloMosaic.PureOps.Ideal.Laws
import Idealize.ShloMosaic.Lib.ValueIdx

noncomputable section

open scoped BigOperators

namespace Idealize.ShloMosaic.TransposedDot

open Idealize.ShloMosaic Idealize.ShloMosaic.ValueIdx

variable {M K N : Nat}

/-- The one-axis contraction index of the product is its coordinate. -/
def contrE (M K N : Nat) : (DotDims.transposedRhs M K N).contr.Idx ≃ Fin K :=
  contrEquiv1 (DotDims.transposedRhs M K N) K rfl rfl

theorem contrE_symm_val (k : Fin K) :
    ((contrE M K N).symm k ⟨0, by have h : (DotDims.transposedRhs M K N).contr.rank = 1 := rfl; omega⟩ : ℕ) = k.val :=
  contrEquiv1_symm_val (DotDims.transposedRhs M K N) K rfl rfl k

/-- The left operand is read at (row of the result, contracted coordinate). -/
theorem lhsIdx_eq (r : Fin M) (c : Fin N) (k : Fin K) :
    (DotDims.transposedRhs M K N).lhsIdx (ix2 r c) ((contrE M K N).symm k) = ix2 r k := by
  funext a
  apply Fin.ext
  match a with
  | ⟨0, _⟩ => rfl
  | ⟨1, _⟩ => exact ((DotDims.transposedRhs M K N).lhsIdx_val_of_single (cl := 1) rfl (ix2 r c) _).trans (contrE_symm_val k)

/-- The right operand is read at (column of the result, contracted coordinate). -/
theorem rhsIdx_eq (r : Fin M) (c : Fin N) (k : Fin K) :
    (DotDims.transposedRhs M K N).rhsIdx (ix2 r c) ((contrE M K N).symm k) = ix2 c k := by
  funext a
  apply Fin.ext
  match a with
  | ⟨0, _⟩ => rfl
  | ⟨1, _⟩ => exact ((DotDims.transposedRhs M K N).rhsIdx_val_of_single (cr := 1) rfl (ix2 r c) _).trans (contrE_symm_val k)

/-- The sum over the contraction index, re-indexed by the contracted coordinate. -/
theorem sum_contr (f : (⟨2, ![M, K]⟩ : Shape).Idx → EReal) (g : (⟨2, ![N, K]⟩ : Shape).Idx → EReal) (r : Fin M) (c : Fin N) :
    (∑ k : (DotDims.transposedRhs M K N).contr.Idx,
        f ((DotDims.transposedRhs M K N).lhsIdx (ix2 r c) k) * g ((DotDims.transposedRhs M K N).rhsIdx (ix2 r c) k))
      = ∑ k : Fin K, f (ix2 r k) * g (ix2 c k) := by
  rw [← Equiv.sum_comp (contrE M K N).symm]
  exact Finset.sum_congr rfl fun k _ => by rw [lhsIdx_eq, rhsIdx_eq]

/-- The vector unit's matmul into the zero accumulator, at (r, c). -/
theorem matmul_zero_apply {φ₁ φ₂ : FTy} (prec : Option ContractPrecision)
    (x : FVec Ideal ⟨2, ![M, K]⟩ φ₁) (w : FVec Ideal ⟨2, ![N, K]⟩ φ₂) (r : Fin M) (c : Fin N) :
    FloatOps.matmul (DotDims.transposedRhs M K N) prec x w (constant (⟨2, ![M, N]⟩ : Shape) .f32 0x00000000#32) (ix2 r c)
      = ∑ k : Fin K, x (ix2 r k) * w (ix2 c k) :=
  (Ideal.matmul_constant_zero_apply (DotDims.transposedRhs M K N) prec x w (ix2 r c)).trans (sum_contr x w r c)

/-- The host's dot_general, at (r, c). -/
theorem dotGeneral_apply {φ₁ φ₂ : FTy} (prec : Option ContractPrecision) (sched : HostSchedule)
    (x : FVec Ideal ⟨2, ![M, K]⟩ φ₁) (w : FVec Ideal ⟨2, ![N, K]⟩ φ₂) (r : Fin M) (c : Fin N) :
    FloatOps.dotGeneral (DotDims.transposedRhs M K N) prec sched x w (ix2 r c) = ∑ k : Fin K, x (ix2 r k) * w (ix2 c k) :=
  (Ideal.dotGeneral_apply (DotDims.transposedRhs M K N) prec sched x w (ix2 r c)).trans (sum_contr x w r c)

end Idealize.ShloMosaic.TransposedDot

end
-- ==== Proof.LibAxisFold.lean ====
/-
  A reduction over one axis of a two-axis array on the extended reals, read at a row or a column.

  For an a×b array X:
    * the index over row p with coordinate k inserted on the second axis is (p, k); over column c with coordinate r
      inserted on the first axis it is (r, c);
    * the vector unit's sum over the second axis, at row p, is Σ_k X(p, k); over the first axis, at column c, Σ_r X(r, c);
    * its maximum over the second axis from the accumulator pattern acc, at row p, is the fold of max over k of X(p, k)
      from the value of acc.
-/
import Idealize.ShloMosaic.PureOps.Ideal.Laws
import Idealize.ShloMosaic.Lib.ValueIdx

noncomputable section

namespace Idealize.ShloMosaic.AxisFold

open Idealize.ShloMosaic Idealize.ShloMosaic.ValueIdx

/-- Row p with k inserted on the second axis is (p, k). -/
theorem lift_second {a b : ℕ} (h : Shape.Reduces ⟨2, ![a, b]⟩ [1] ⟨1, ![a]⟩) (p : Fin a) (k : Fin b) :
    h.lift (ix1 p) k = ix2 p k := by
  funext ax
  apply Fin.ext
  match ax with
  | ⟨0, _⟩ => rfl
  | ⟨1, _⟩ => rfl

/-- Column c with r inserted on the first axis is (r, c). -/
theorem lift_first {a b : ℕ} (h : Shape.Reduces ⟨2, ![a, b]⟩ [0] ⟨1, ![b]⟩) (c : Fin b) (r : Fin a) :
    h.lift (ix1 c) r = ix2 r c := by
  funext ax
  apply Fin.ext
  match ax with
  | ⟨0, _⟩ => rfl
  | ⟨1, _⟩ => rfl

/-- The vector unit's sum over the second axis, at row p. -/
theorem sum_second_apply {a b : ℕ} (X : FVec Ideal ⟨2, ![a, b]⟩ .f32) (h : Shape.Reduces ⟨2, ![a, b]⟩ [1] ⟨1, ![a]⟩)
    (hφ : FKind.Formats .f32) (hacc : (0x00000000#32 : BitVec 32) = FKind.add.neutral .f32 hφ) (p : Fin a) :
    multiReduction .add [1] ⟨1, ![a]⟩ X 0x00000000#32 h hφ hacc (ix1 p) = ∑ k : Fin b, X (ix2 p k) := by
  refine (Ideal.multiReduction_add_single X 0x00000000#32 h hφ hacc (ix1 p)).trans ?_
  exact Finset.sum_congr rfl fun k _ => congrArg X (lift_second h p k)

/-- The vector unit's sum over the first axis, at column c. -/
theorem sum_first_apply {a b : ℕ} (X : FVec Ideal ⟨2, ![a, b]⟩ .f32) (h : Shape.Reduces ⟨2, ![a, b]⟩ [0] ⟨1, ![b]⟩)
    (hφ : FKind.Formats .f32) (hacc : (0x00000000#32 : BitVec 32) = FKind.add.neutral .f32 hφ) (c : Fin b) :
    multiReduction .add [0] ⟨1, ![b]⟩ X 0x00000000#32 h hφ hacc (ix1 c) = ∑ r : Fin a, X (ix2 r c) := by
  refine (Ideal.multiReduction_add_single X 0x00000000#32 h hφ hacc (ix1 c)).trans ?_
  exact Finset.sum_congr rfl fun r _ => congrArg X (lift_first h c r)

/-- The vector unit's maximum over the second axis from the pattern acc, at row p. -/
theorem max_second_apply {a b : ℕ} (X : FVec Ideal ⟨2, ![a, b]⟩ .f32) (acc : BitVec 32) (h : Shape.Reduces ⟨2, ![a, b]⟩ [1] ⟨1, ![a]⟩)
    (hφ : FKind.Formats .f32) (hacc : acc = FKind.maximumf.neutral .f32 hφ) (p : Fin a) :
    multiReduction .maximumf [1] ⟨1, ![a]⟩ X acc h hφ hacc (ix1 p)
      = (Finset.univ : Finset (Fin b)).fold max (Ideal.ofBits .f32 acc) (fun k => X (ix2 p k)) := by
  refine (Ideal.multiReduction_maximumf_single X acc h hφ hacc (ix1 p)).trans ?_
  have e : (X ∘ h.lift (ix1 p)) = fun k : Fin b => X (ix2 p k) :=
    funext fun k => congrArg X (lift_second h p k)
  rw [e]
  rfl

end Idealize.ShloMosaic.AxisFold

end
-- ==== Proof.KernelRead.lean ====
/-
  The kernel's body, read at an index, is the network of the specification.

  The body loads every operand block whole, so its result is one tree of vector operations of the twenty loaded arrays.
  Read at (r, c), each product with transposed weights into the zero accumulator is the sum over the contracted
  coordinate k of x(r, k) · w(c, k) (rounding an operand to the narrower format is the identity on the extended reals);
  each bias is a 1×500 row broadcast over the 64 rows, read at (0, c); the rectifier acts entry by entry; the last
  step multiplies the 64×500 activations by the one output weight row, sums each row from the zero accumulator,
  adds the 1×1 bias and applies the logistic function. Put together: the entry (r, 0) of the stored block is the
  specification's score of row r.
-/
import proofs.«125282_j60756607369781_2_alg».proof.Proof.KernelValue
import proofs.«125282_j60756607369781_2_alg».proof.Proof.LibTransposedDot
import proofs.«125282_j60756607369781_2_alg».proof.Proof.LibAxisFold
import proofs.«125282_j60756607369781_2_alg».proof.Proof.Spec
import Idealize.ShloMosaic.Lib.ValueLayout
import Idealize.ShloMosaic.Lib.ValueIdx
import Idealize.ShloMosaic.Lib.Pipeline.Value

noncomputable section

open scoped BigOperators

namespace Cert.KernelIdeal.Rows

open Cert.KernelIdeal Cert.KernelIdeal.Gen Idealize.ShloMosaic Idealize.ShloMosaic.ValueIdx Cert.Spec

/-! ## The products with transposed weights, at (r, c) -/

/-- Contraction length 128. -/
theorem mm128 (X : FVec Ideal S64x128 .f32) (W : FVec Ideal S500x128 .f32) (r : Fin 64) (c : Fin 500) :
    matmul dot_S64x128_S500x128_S64x500_1_1_0_0_n_n none (truncf .bf16 X bitsLt_bf16_f32) (truncf .bf16 W bitsLt_bf16_f32)
      (constant (F := Ideal) S64x500 .f32 0x00000000#32) (ix2 r c) = dot (mat X) (mat W) r c :=
  TransposedDot.matmul_zero_apply (M := 64) (K := 128) (N := 500) none (truncf .bf16 X bitsLt_bf16_f32) (truncf .bf16 W bitsLt_bf16_f32) r c

/-- Contraction length 1. -/
theorem mm1 (X : FVec Ideal S64x1 .f32) (W : FVec Ideal S500x1 .f32) (r : Fin 64) (c : Fin 500) :
    matmul dot_S64x1_S500x1_S64x500_1_1_0_0_n_n none (truncf .bf16 X bitsLt_bf16_f32) (truncf .bf16 W bitsLt_bf16_f32)
      (constant (F := Ideal) S64x500 .f32 0x00000000#32) (ix2 r c) = dot (mat X) (mat W) r c :=
  TransposedDot.matmul_zero_apply (M := 64) (K := 1) (N := 500) none (truncf .bf16 X bitsLt_bf16_f32) (truncf .bf16 W bitsLt_bf16_f32) r c

/-- Contraction length 500. -/
theorem mm500 (X : FVec Ideal S64x500 .f32) (W : FVec Ideal S500x500 .f32) (r : Fin 64) (c : Fin 500) :
    matmul dot_S64x500_S500x500_S64x500_1_1_0_0_n_n none (truncf .bf16 X bitsLt_bf16_f32) (truncf .bf16 W bitsLt_bf16_f32)
      (constant (F := Ideal) S64x500 .f32 0x00000000#32) (ix2 r c) = dot (mat X) (mat W) r c :=
  TransposedDot.matmul_zero_apply (M := 64) (K := 500) (N := 500) none (truncf .bf16 X bitsLt_bf16_f32) (truncf .bf16 W bitsLt_bf16_f32) r c

/-- A 1×500 bias row over the 64 rows, at (r, c), is the row's entry c. -/
theorem bias (B : Vec Ideal S1x500 .f32) (r : Fin 64) (c : Fin 500) :
    broadcastTo S64x500 B broadcasts_S1x500_S64x500 (ix2 r c) = row B c :=
  broadcastTo_1b_ab_apply B broadcasts_S1x500_S64x500 r c

/-- The same after the body's cast of the row to its own shape. -/
theorem biasCast (B : Vec Ideal S1x500 .f32) (r : Fin 64) (c : Fin 500) :
    broadcastTo S64x500 (shapeCast S1x500 B shapeCasts_S1x500_S1x500) broadcasts_S1x500_S64x500 (ix2 r c) = row B c :=
  (bias _ r c).trans (congrFun (shapeCast_self B shapeCasts_S1x500_S1x500) _)

/-! ## The layers as the body spells them -/

/-- An affine layer of width 500. -/
def lin (X : FVec Ideal S64x500 .f32) (W : Vec Ideal S500x500 .f32) (B : Vec Ideal S1x500 .f32) : FVec Ideal S64x500 .f32 :=
  addf (matmul dot_S64x500_S500x500_S64x500_1_1_0_0_n_n none (truncf .bf16 X bitsLt_bf16_f32) (truncf .bf16 W bitsLt_bf16_f32)
      (constant S64x500 .f32 0x00000000#32))
    (broadcastTo S64x500 (shapeCast S1x500 B shapeCasts_S1x500_S1x500) broadcasts_S1x500_S64x500)

/-- The leaky rectifier, entry by entry. -/
def act (Y : FVec Ideal S64x500 .f32) : FVec Ideal S64x500 .f32 :=
  select (cmpf .ogt Y (broadcast S64x500 (Scalar.ofBits .f32 0x00000000#32))) Y
    (mulf (broadcast S64x500 (Scalar.ofBits .f32 0x3C23D70A#32)) Y)

theorem lin_mat (X : FVec Ideal S64x500 .f32) (W : Vec Ideal S500x500 .f32) (B : Vec Ideal S1x500 .f32) :
    mat (lin X W B) = affine (mat X) (mat W) (row B) := by
  funext r c
  show matmul _ none _ _ _ (ix2 r c) + broadcastTo S64x500 _ _ (ix2 r c) = _
  rw [mm500, biasCast]
  rfl

theorem act_mat (Y : FVec Ideal S64x500 .f32) : mat (act Y) = fun r c => lrelu (mat Y r c) := rfl

theorem hid_mat (X : FVec Ideal S64x500 .f32) (W : Vec Ideal S500x500 .f32) (B : Vec Ideal S1x500 .f32) :
    mat (act (lin X W B)) = hidden (mat X) (mat W) (row B) := by
  rw [act_mat, lin_mat]
  rfl

/-! ## The body's parts -/

/-- The first three embeddings with their biases. -/
theorem pay3_mat (P1 P2 : Vec Ideal S64x128 .f32) (P3 : Vec Ideal S64x1 .f32) (P4 : Vec Ideal S500x128 .f32) (P5 : Vec Ideal S1x500 .f32)
    (P6 : Vec Ideal S500x128 .f32) (P7 : Vec Ideal S1x500 .f32) (P8 : Vec Ideal S500x1 .f32) (P9 : Vec Ideal S1x500 .f32) :
    mat (k0_pay3 P1 P2 P3 P4 P5 P6 P7 P8 P9)
      = fun r c => dot (mat P1) (mat P4) r c + row P5 c + dot (mat P2) (mat P6) r c + row P7 c + dot (mat P3) (mat P8) r c + row P9 c := by
  funext r c
  show k0_pay3 P1 P2 P3 P4 P5 P6 P7 P8 P9 (ix2 r c) = _
  unfold k0_pay3
  simp only [shapeCast_self]
  show _ + _ + _ + _ + _ + _ = _
  rw [mm128, mm128, mm1, bias, bias, bias]

/-- The second part of the body is the fourth embedding added, two hidden layers, and the product of the last affine layer. -/
theorem pay4_eq (v7 : FVec Ideal S64x1 .f32) (v33 : FVec Ideal S64x500 .f32) (P10 : Vec Ideal S500x1 .f32) (P11 : Vec Ideal S1x500 .f32)
    (P12 : Vec Ideal S500x500 .f32) (P13 : Vec Ideal S1x500 .f32) (P14 : Vec Ideal S500x500 .f32) (P15 : Vec Ideal S1x500 .f32)
    (P16 : Vec Ideal S500x500 .f32) :
    k0_pay4 v7 v33 P10 P11 P12 P13 P14 P15 P16
      = matmul dot_S64x500_S500x500_S64x500_1_1_0_0_n_n none
          (truncf .bf16 (act (lin (act (lin
            (addf (addf v33 (matmul dot_S64x1_S500x1_S64x500_1_1_0_0_n_n none (truncf .bf16 v7 bitsLt_bf16_f32) (truncf .bf16 P10 bitsLt_bf16_f32)
                (constant S64x500 .f32 0x00000000#32)))
              (broadcastTo S64x500 (shapeCast S1x500 P11 shapeCasts_S1x500_S1x500) broadcasts_S1x500_S64x500))
            P12 P13)) P14 P15)) bitsLt_bf16_f32)
          (truncf .bf16 P16 bitsLt_bf16_f32) (constant S64x500 .f32 0x00000000#32) := rfl

theorem pay4_mat (v7 : FVec Ideal S64x1 .f32) (v33 : FVec Ideal S64x500 .f32) (P10 : Vec Ideal S500x1 .f32) (P11 : Vec Ideal S1x500 .f32)
    (P12 : Vec Ideal S500x500 .f32) (P13 : Vec Ideal S1x500 .f32) (P14 : Vec Ideal S500x500 .f32) (P15 : Vec Ideal S1x500 .f32)
    (P16 : Vec Ideal S500x500 .f32) :
    mat (k0_pay4 v7 v33 P10 P11 P12 P13 P14 P15 P16)
      = dot (hidden (hidden (fun r c => mat v33 r c + dot (mat v7) (mat P10) r c + row P11 c) (mat P12) (row P13)) (mat P14) (row P15)) (mat P16) := by
  funext r c
  show k0_pay4 v7 v33 P10 P11 P12 P13 P14 P15 P16 (ix2 r c) = _
  rw [pay4_eq, mm500, hid_mat, hid_mat]
  have e : mat (addf (addf v33 (matmul dot_S64x1_S500x1_S64x500_1_1_0_0_n_n none (truncf .bf16 v7 bitsLt_bf16_f32) (truncf .bf16 P10 bitsLt_bf16_f32)
                (constant (F := Ideal) S64x500 .f32 0x00000000#32)))
              (broadcastTo S64x500 (shapeCast S1x500 P11 shapeCasts_S1x500_S1x500) broadcasts_S1x500_S64x500))
      = fun r c => mat v33 r c + dot (mat v7) (mat P10) r c + row P11 c := by
    funext r c
    show v33 (ix2 r c) + matmul _ none _ _ _ (ix2 r c) + broadcastTo S64x500 _ _ (ix2 r c) = _
    rw [mm1, biasCast]
    rfl
  rw [e]

/-! ## The stored block -/

/-- The entry (r, 0) of the block the body stores is the network's score of row r. -/
theorem E20_apply (P0 : Vec Ideal S64x1 .f32) (P1 P2 : Vec Ideal S64x128 .f32) (P3 : Vec Ideal S64x1 .f32) (P4 : Vec Ideal S500x128 .f32) (P5 : Vec Ideal S1x500 .f32)
    (P6 : Vec Ideal S500x128 .f32) (P7 : Vec Ideal S1x500 .f32) (P8 : Vec Ideal S500x1 .f32) (P9 : Vec Ideal S1x500 .f32) (P10 : Vec Ideal S500x1 .f32)
    (P11 : Vec Ideal S1x500 .f32) (P12 : Vec Ideal S500x500 .f32) (P13 : Vec Ideal S1x500 .f32) (P14 : Vec Ideal S500x500 .f32) (P15 : Vec Ideal S1x500 .f32)
    (P16 : Vec Ideal S500x500 .f32) (P17 P18 : Vec Ideal S1x500 .f32) (P19 : Vec Ideal S1x1 .f32) (r : Fin 64) (q : Fin 1) :
    ValueP.E20 P0 P1 P2 P3 P4 P5 P6 P7 P8 P9 P10 P11 P12 P13 P14 P15 P16 P17 P18 P19 (ix2 r q)
      = net (mat P1) (mat P2) (mat P3) (mat P0) (mat P4) (row P5) (mat P6) (row P7) (mat P8) (row P9) (mat P10) (row P11)
          (mat P12) (row P13) (mat P14) (row P15) (mat P16) (row P17) (row P18) (P19 (ix2 (0 : Fin 1) (0 : Fin 1))) r := by
  have e0 : ValueP.ix20_0 (ix2 r q) = ix1 r := funext fun a => match a with | ⟨0, _⟩ => rfl
  have e1 : ValueP.ix20_1 (ix2 r q) = ix2 (0 : Fin 1) (0 : Fin 1) := funext fun a => match a with | ⟨0, _⟩ => rfl | ⟨1, _⟩ => rfl
  unfold net score
  refine congrArg Ideal.logistic (congrArg₂ (· + ·) ?_ (congrArg P19 e1))
  refine (congrArg _ e0).trans ?_
  refine (AxisFold.sum_second_apply _ _ _ _ r).trans (Finset.sum_congr rfl fun k _ => ?_)
  show (k0_pay4 _ _ P10 P11 P12 P13 P14 P15 P16 (ix2 r k) + broadcastTo S64x500 _ _ (ix2 r k)) * broadcastTo S64x500 _ _ (ix2 r k) = _
  rw [biasCast, bias]
  show (mat (k0_pay4 _ _ P10 P11 P12 P13 P14 P15 P16) r k + row P17 k) * row P18 k = _
  rw [pay4_mat, shapeCast_self, pay3_mat]
  rfl

end Cert.KernelIdeal.Rows

end
-- ==== Proof.RefRead.lean ====
/-
  The reference, read at an index, is the network of the specification.

  The reference computes every layer for all 2048 time steps and keeps the last one. Read at (t, b, c), each of its
  contractions of the last axis against a weight matrix's last axis is the sum over k of x(t, b, k) · w(c, k); each bias
  is a length-500 vector read at c; the rectifier acts entry by entry. So every layer at time step t depends on the
  inputs at time step t alone, and the slice at t = 2047 of the last affine layer is the specification's affine layer of
  the inputs' slabs at t = 2047. The product with the transposed output weight row, the bias, and the logistic function spelt
  out as  1 / (1 + exp (−z))  give the specification's score.
-/
import proofs.«125282_j60756607369781_2_alg».proof.Proof.Gen.ReferenceIdeal.Read
import proofs.«125282_j60756607369781_2_alg».proof.Proof.Spec
import Idealize.ShloMosaic.Lib.ValueIdx
import Idealize.ShloMosaic.Lib.IdealHost

noncomputable section

open scoped BigOperators

namespace Cert.ReferenceIdeal.Rows

open Cert.ReferenceIdeal Cert.ReferenceIdeal.Read Idealize.ShloMosaic Idealize.ShloMosaic.ValueIdx Cert.Spec

variable (x0 x1 : (⟨S2048x64x128, .f32⟩ : BufTy).Contents (Elt Ideal)) (x2 x3 : (⟨S2048x64x1, .f32⟩ : BufTy).Contents (Elt Ideal))
  (x4 : (⟨S500x128, .f32⟩ : BufTy).Contents (Elt Ideal)) (x5 : (⟨S500, .f32⟩ : BufTy).Contents (Elt Ideal)) (x6 : (⟨S500x128, .f32⟩ : BufTy).Contents (Elt Ideal)) (x7 : (⟨S500, .f32⟩ : BufTy).Contents (Elt Ideal))
  (x8 : (⟨S500x1, .f32⟩ : BufTy).Contents (Elt Ideal)) (x9 : (⟨S500, .f32⟩ : BufTy).Contents (Elt Ideal)) (x10 : (⟨S500x1, .f32⟩ : BufTy).Contents (Elt Ideal)) (x11 : (⟨S500, .f32⟩ : BufTy).Contents (Elt Ideal))
  (x12 : (⟨S500x500, .f32⟩ : BufTy).Contents (Elt Ideal)) (x13 : (⟨S500, .f32⟩ : BufTy).Contents (Elt Ideal)) (x14 : (⟨S500x500, .f32⟩ : BufTy).Contents (Elt Ideal)) (x15 : (⟨S500, .f32⟩ : BufTy).Contents (Elt Ideal))
  (x16 : (⟨S500x500, .f32⟩ : BufTy).Contents (Elt Ideal)) (x17 : (⟨S500, .f32⟩ : BufTy).Contents (Elt Ideal)) (x18 : (⟨S1x500, .f32⟩ : BufTy).Contents (Elt Ideal)) (x19 : (⟨S1, .f32⟩ : BufTy).Contents (Elt Ideal))
variable (t : Fin 2048) (b : Fin 64) (c : Fin 500)

/-! ## Where each operation reads its operands, on coordinates -/

local macro "idx1" : term => `(funext fun a => match a with | ⟨0, _⟩ => rfl)
local macro "idx2" : term => `(funext fun a => match a with | ⟨0, _⟩ => rfl | ⟨1, _⟩ => rfl)
local macro "idx3" : term => `(funext fun a => match a with | ⟨0, _⟩ => rfl | ⟨1, _⟩ => rfl | ⟨2, _⟩ => rfl)

/-! ## The four embeddings and their biases at (t, b, c) -/

theorem dg0 : val_main_v0 (F := Ideal) x0 x4 (ix3 t b c) = dot (slab x0 t) (mat x4) b c :=
  (val_main_v0_apply x0 x4 _).trans (Finset.sum_congr rfl fun k _ => congrArg₂ (· * ·)
    (congrArg x0 (idx3 : lidx_main_v0 (ix3 t b c) k = ix3 t b k)) (congrArg x4 (idx2 : ridx_main_v0 (ix3 t b c) k = ix2 c k)))

theorem dg4 : val_main_v4 (F := Ideal) x1 x6 (ix3 t b c) = dot (slab x1 t) (mat x6) b c :=
  (val_main_v4_apply x1 x6 _).trans (Finset.sum_congr rfl fun k _ => congrArg₂ (· * ·)
    (congrArg x1 (idx3 : lidx_main_v4 (ix3 t b c) k = ix3 t b k)) (congrArg x6 (idx2 : ridx_main_v4 (ix3 t b c) k = ix2 c k)))

theorem dg9 : val_main_v9 (F := Ideal) x2 x8 (ix3 t b c) = dot (slab x2 t) (mat x8) b c :=
  (val_main_v9_apply x2 x8 _).trans (Finset.sum_congr rfl fun k _ => congrArg₂ (· * ·)
    (congrArg x2 (idx3 : lidx_main_v9 (ix3 t b c) k = ix3 t b k)) (congrArg x8 (idx2 : ridx_main_v9 (ix3 t b c) k = ix2 c k)))

theorem dg14 : val_main_v14 (F := Ideal) x3 x10 (ix3 t b c) = dot (slab x3 t) (mat x10) b c :=
  (val_main_v14_apply x3 x10 _).trans (Finset.sum_congr rfl fun k _ => congrArg₂ (· * ·)
    (congrArg x3 (idx3 : lidx_main_v14 (ix3 t b c) k = ix3 t b k)) (congrArg x10 (idx2 : ridx_main_v14 (ix3 t b c) k = ix2 c k)))

theorem bias2 : val_main_v2 (F := Ideal) x5 (ix3 t b c) = vec x5 c :=
  (val_main_v2_apply x5 _).trans ((val_main_v1_apply x5 _).trans (congrArg x5 (idx1 : idx_main_v1 (idx_main_v2 (ix3 t b c)) = ix1 c)))

theorem bias7 : val_main_v7 (F := Ideal) x7 (ix3 t b c) = vec x7 c :=
  (val_main_v7_apply x7 _).trans ((val_main_v6_apply x7 _).trans (congrArg x7 (idx1 : idx_main_v6 (idx_main_v7 (ix3 t b c)) = ix1 c)))

theorem bias12 : val_main_v12 (F := Ideal) x9 (ix3 t b c) = vec x9 c :=
  (val_main_v12_apply x9 _).trans ((val_main_v11_apply x9 _).trans (congrArg x9 (idx1 : idx_main_v11 (idx_main_v12 (ix3 t b c)) = ix1 c)))

theorem bias17 : val_main_v17 (F := Ideal) x11 (ix3 t b c) = vec x11 c :=
  (val_main_v17_apply x11 _).trans ((val_main_v16_apply x11 _).trans (congrArg x11 (idx1 : idx_main_v16 (idx_main_v17 (ix3 t b c)) = ix1 c)))

theorem bias21 : val_main_v21 (F := Ideal) x13 (ix3 t b c) = vec x13 c :=
  (val_main_v21_apply x13 _).trans ((val_main_v20_apply x13 _).trans (congrArg x13 (idx1 : idx_main_v20 (idx_main_v21 (ix3 t b c)) = ix1 c)))

theorem bias30 : val_main_v30 (F := Ideal) x15 (ix3 t b c) = vec x15 c :=
  (val_main_v30_apply x15 _).trans ((val_main_v29_apply x15 _).trans (congrArg x15 (idx1 : idx_main_v29 (idx_main_v30 (ix3 t b c)) = ix1 c)))

theorem bias39 : val_main_v39 (F := Ideal) x17 (ix3 t b c) = vec x17 c :=
  (val_main_v39_apply x17 _).trans ((val_main_v38_apply x17 _).trans (congrArg x17 (idx1 : idx_main_v38 (idx_main_v39 (ix3 t b c)) = ix1 c)))

/-- The summed embeddings at time step t depend on the inputs at time step t alone. -/
theorem embed_at : val_main_v18 (F := Ideal) x0 x1 x2 x3 x4 x5 x6 x7 x8 x9 x10 x11 (ix3 t b c) = embed (slab x0 t) (slab x1 t) (slab x2 t) (slab x3 t) (mat x4) (vec x5) (mat x6) (vec x7) (mat x8) (vec x9) (mat x10) (vec x11) b c := by
  show val_main_v0 (F := Ideal) x0 x4 (ix3 t b c) + val_main_v2 (F := Ideal) x5 (ix3 t b c) + val_main_v4 (F := Ideal) x1 x6 (ix3 t b c)
      + val_main_v7 (F := Ideal) x7 (ix3 t b c) + val_main_v9 (F := Ideal) x2 x8 (ix3 t b c) + val_main_v12 (F := Ideal) x9 (ix3 t b c)
      + val_main_v14 (F := Ideal) x3 x10 (ix3 t b c) + val_main_v17 (F := Ideal) x11 (ix3 t b c) = _
  rw [dg0, bias2, dg4, bias7, dg9, bias12, dg14, bias17]
  rfl

/-! ## The hidden layers and the last affine layer at (t, b, c) -/

/-- The rectifier's two literals, broadcast from scalars, read at any index. -/
theorem zero23 (i : S2048x64x500.Idx) : val_main_v23 (F := Ideal) i = FloatOps.ofBits (F := Ideal) .f32 0x00000000#32 := val_main_v23_apply i
theorem slope25 (i : S2048x64x500.Idx) : val_main_v25 (F := Ideal) i = FloatOps.ofBits (F := Ideal) .f32 0x3C23D70A#32 := val_main_v25_apply i
theorem zero32 (i : S2048x64x500.Idx) : val_main_v32 (F := Ideal) i = FloatOps.ofBits (F := Ideal) .f32 0x00000000#32 := val_main_v32_apply i
theorem slope34 (i : S2048x64x500.Idx) : val_main_v34 (F := Ideal) i = FloatOps.ofBits (F := Ideal) .f32 0x3C23D70A#32 := val_main_v34_apply i

theorem pre1_at : val_main_v22 (F := Ideal) x0 x1 x2 x3 x4 x5 x6 x7 x8 x9 x10 x11 x12 x13 (ix3 t b c) = affine (embed (slab x0 t) (slab x1 t) (slab x2 t) (slab x3 t) (mat x4) (vec x5) (mat x6) (vec x7) (mat x8) (vec x9) (mat x10) (vec x11)) (mat x12) (vec x13) b c := by
  show val_main_v19 (F := Ideal) x0 x1 x2 x3 x4 x5 x6 x7 x8 x9 x10 x11 x12 (ix3 t b c) + val_main_v21 (F := Ideal) x13 (ix3 t b c) = _
  rw [bias21]
  refine congrArg (· + vec x13 c) ?_
  refine (val_main_v19_apply x0 x1 x2 x3 x4 x5 x6 x7 x8 x9 x10 x11 x12 _).trans (Finset.sum_congr rfl fun k _ => congrArg₂ (· * ·) ?_ (congrArg x12 (idx2 : ridx_main_v19 (ix3 t b c) k = ix2 c k)))
  exact (congrArg _ (idx3 : lidx_main_v19 (ix3 t b c) k = ix3 t b k)).trans (embed_at x0 x1 x2 x3 x4 x5 x6 x7 x8 x9 x10 x11 t b k)

theorem hid1_at : val_main_v27 (F := Ideal) x0 x1 x2 x3 x4 x5 x6 x7 x8 x9 x10 x11 x12 x13 (ix3 t b c) = hidden (embed (slab x0 t) (slab x1 t) (slab x2 t) (slab x3 t) (mat x4) (vec x5) (mat x6) (vec x7) (mat x8) (vec x9) (mat x10) (vec x11)) (mat x12) (vec x13) b c := by
  rw [val_main_v27_apply, val_main_v24_apply, val_main_v26_apply, zero23, slope25, pre1_at]
  rfl

theorem pre2_at : val_main_v31 (F := Ideal) x0 x1 x2 x3 x4 x5 x6 x7 x8 x9 x10 x11 x12 x13 x14 x15 (ix3 t b c) = affine (hidden (embed (slab x0 t) (slab x1 t) (slab x2 t) (slab x3 t) (mat x4) (vec x5) (mat x6) (vec x7) (mat x8) (vec x9) (mat x10) (vec x11)) (mat x12) (vec x13)) (mat x14) (vec x15) b c := by
  show val_main_v28 (F := Ideal) x0 x1 x2 x3 x4 x5 x6 x7 x8 x9 x10 x11 x12 x13 x14 (ix3 t b c) + val_main_v30 (F := Ideal) x15 (ix3 t b c) = _
  rw [bias30]
  refine congrArg (· + vec x15 c) ?_
  refine (val_main_v28_apply x0 x1 x2 x3 x4 x5 x6 x7 x8 x9 x10 x11 x12 x13 x14 _).trans (Finset.sum_congr rfl fun k _ => congrArg₂ (· * ·) ?_ (congrArg x14 (idx2 : ridx_main_v28 (ix3 t b c) k = ix2 c k)))
  exact (congrArg _ (idx3 : lidx_main_v28 (ix3 t b c) k = ix3 t b k)).trans (hid1_at x0 x1 x2 x3 x4 x5 x6 x7 x8 x9 x10 x11 x12 x13 t b k)

theorem hid2_at : val_main_v36 (F := Ideal) x0 x1 x2 x3 x4 x5 x6 x7 x8 x9 x10 x11 x12 x13 x14 x15 (ix3 t b c) = hidden (hidden (embed (slab x0 t) (slab x1 t) (slab x2 t) (slab x3 t) (mat x4) (vec x5) (mat x6) (vec x7) (mat x8) (vec x9) (mat x10) (vec x11)) (mat x12) (vec x13)) (mat x14) (vec x15) b c := by
  rw [val_main_v36_apply, val_main_v33_apply, val_main_v35_apply, zero32, slope34, pre2_at]
  rfl

theorem info_at : val_main_v40 (F := Ideal) x0 x1 x2 x3 x4 x5 x6 x7 x8 x9 x10 x11 x12 x13 x14 x15 x16 x17 (ix3 t b c) = affine (hidden (hidden (embed (slab x0 t) (slab x1 t) (slab x2 t) (slab x3 t) (mat x4) (vec x5) (mat x6) (vec x7) (mat x8) (vec x9) (mat x10) (vec x11)) (mat x12) (vec x13)) (mat x14) (vec x15)) (mat x16) (vec x17) b c := by
  show val_main_v37 (F := Ideal) x0 x1 x2 x3 x4 x5 x6 x7 x8 x9 x10 x11 x12 x13 x14 x15 x16 (ix3 t b c) + val_main_v39 (F := Ideal) x17 (ix3 t b c) = _
  rw [bias39]
  refine congrArg (· + vec x17 c) ?_
  refine (val_main_v37_apply x0 x1 x2 x3 x4 x5 x6 x7 x8 x9 x10 x11 x12 x13 x14 x15 x16 _).trans (Finset.sum_congr rfl fun k _ => congrArg₂ (· * ·) ?_ (congrArg x16 (idx2 : ridx_main_v37 (ix3 t b c) k = ix2 c k)))
  exact (congrArg _ (idx3 : lidx_main_v37 (ix3 t b c) k = ix3 t b k)).trans (hid2_at x0 x1 x2 x3 x4 x5 x6 x7 x8 x9 x10 x11 x12 x13 x14 x15 t b k)

/-! ## The last time step, and the score -/

variable (r : Fin 64)

/-- The slice at the last time step with its unit axis dropped, at (r, k), is the last affine layer at (2047, r, k). -/
theorem last_at (k : Fin 500) : val_main_v42 (F := Ideal) x0 x1 x2 x3 x4 x5 x6 x7 x8 x9 x10 x11 x12 x13 x14 x15 x16 x17 (ix2 r k) = affine (hidden (hidden (embed (slab x0 (2047 : Fin 2048)) (slab x1 (2047 : Fin 2048)) (slab x2 (2047 : Fin 2048)) (slab x3 (2047 : Fin 2048)) (mat x4) (vec x5) (mat x6) (vec x7) (mat x8) (vec x9) (mat x10) (vec x11)) (mat x12) (vec x13)) (mat x14) (vec x15)) (mat x16) (vec x17) r k := by
  have e : idx_main_v41 (idx_main_v42 (ix2 r k)) = ix3 (2047 : Fin 2048) r k := by
    have hr := r.isLt
    have hk := k.isLt
    funext a
    apply Fin.ext
    match a with
    | ⟨0, _⟩ => rfl
    | ⟨1, _⟩ => show (r.val * 500 + k.val) / 500 % 64 = r.val; omega
    | ⟨2, _⟩ => show (r.val * 500 + k.val) % 500 = k.val; omega
  exact (val_main_v42_apply x0 x1 x2 x3 x4 x5 x6 x7 x8 x9 x10 x11 x12 x13 x14 x15 x16 x17 _).trans ((val_main_v41_apply x0 x1 x2 x3 x4 x5 x6 x7 x8 x9 x10 x11 x12 x13 x14 x15 x16 x17 _).trans
    ((congrArg _ e).trans (info_at x0 x1 x2 x3 x4 x5 x6 x7 x8 x9 x10 x11 x12 x13 x14 x15 x16 x17 (2047 : Fin 2048) r k)))

/-- The literal one, broadcast from a scalar, read at any index. -/
theorem one50 (i : S64x1.Idx) : val_main_v50 (F := Ideal) i = (1 : EReal) :=
  (val_main_v50_apply i).trans ((val_main_cst_3_apply _).trans Ideal.ofBits_one_f32)
theorem one52 (i : S64x1.Idx) : val_main_v52 (F := Ideal) i = (1 : EReal) :=
  (val_main_v52_apply i).trans ((val_main_cst_4_apply _).trans Ideal.ofBits_one_f32)

/-- The reference's result at (r, 0) is the network's score of row r at the last time step. -/
theorem out_at (q : Fin 1) : val_main_v53 (F := Ideal) x0 x1 x2 x3 x4 x5 x6 x7 x8 x9 x10 x11 x12 x13 x14 x15 x16 x17 x18 x19 (ix2 r q) = net (slab x0 (2047 : Fin 2048)) (slab x1 (2047 : Fin 2048)) (slab x2 (2047 : Fin 2048)) (slab x3 (2047 : Fin 2048)) (mat x4) (vec x5) (mat x6) (vec x7) (mat x8) (vec x9) (mat x10) (vec x11) (mat x12) (vec x13) (mat x14) (vec x15) (mat x16) (vec x17) (row x18) (x19 (ix1 (0 : Fin 1))) r := by
  obtain rfl : q = 0 := Subsingleton.elim _ _
  rw [val_main_v53_apply, val_main_v51_apply, val_main_v49_apply, val_main_v48_apply, val_main_v47_apply, one52, one50]
  unfold net score
  show Ideal.logistic (val_main_v44 (F := Ideal) x0 x1 x2 x3 x4 x5 x6 x7 x8 x9 x10 x11 x12 x13 x14 x15 x16 x17 x18 (ix2 r (0 : Fin 1)) + val_main_v46 (F := Ideal) x19 (ix2 r (0 : Fin 1))) = _
  refine congrArg Ideal.logistic (congrArg₂ (· + ·) ?_ ?_)
  · refine (val_main_v44_apply x0 x1 x2 x3 x4 x5 x6 x7 x8 x9 x10 x11 x12 x13 x14 x15 x16 x17 x18 _).trans (Finset.sum_congr rfl fun k _ => congrArg₂ (· * ·) ?_ ?_)
    · exact (congrArg _ (idx2 : lidx_main_v44 (ix2 r (0 : Fin 1)) k = ix2 r k)).trans (last_at x0 x1 x2 x3 x4 x5 x6 x7 x8 x9 x10 x11 x12 x13 x14 x15 x16 x17 r k)
    · exact (val_main_v43_apply x18 _).trans (congrArg x18 (idx2 : idx_main_v43 (ridx_main_v44 (ix2 r (0 : Fin 1)) k) = ix2 (0 : Fin 1) k))
  · exact (val_main_v46_apply x19 _).trans ((val_main_v45_apply x19 _).trans
      (congrArg x19 (idx1 : idx_main_v45 (idx_main_v46 (ix2 r (0 : Fin 1))) = ix1 (0 : Fin 1))))

end Cert.ReferenceIdeal.Rows

end
-- ==== Proof.lean ====
/-
  The certificate: the kernel and the reference compute the same scores.

  Both programs evaluate, for each of the 64 batch rows, the network of Proof/Spec.lean on time step 2047 of the four
  input streams: four embeddings summed with their biases, two hidden layers with the leaky rectifier, one affine
  layer, and the logistic function of the product with the single output weight row plus its bias.
  The kernel slices time step 2047 on the host and runs the network once, in one grid point whose blocks are the whole
  arrays; the reference runs every layer for all 2048 time steps and keeps the last. Each layer at a time step depends on
  the inputs at that time step alone, so the two agree entry by entry. The sums are the same finite sums of the same
  products in both programs (a product into the zero accumulator, a contraction on the host, and a row sum from the zero
  accumulator are all the plain sum over the contracted coordinate on the extended reals), the two rectifier literals are
  the same bit patterns on both sides, and the kernel's logistic operation is by definition the reference's
  1 / (1 + exp (−z)). No law needing finite inputs is used, so the precondition is never opened.
  The three frames are the generated ones (the reference's is its generated run with the result dropped), and the
  idealization rewrote nothing, so its conjunct is trivial.
-/
import proofs.«125282_j60756607369781_2_alg».proof.Defs
import proofs.«125282_j60756607369781_2_alg».proof.Proof.Gen.Kernel
import proofs.«125282_j60756607369781_2_alg».proof.Proof.Gen.Kernel.Frame
import proofs.«125282_j60756607369781_2_alg».proof.Proof.Gen.KernelIdeal
import proofs.«125282_j60756607369781_2_alg».proof.Proof.Gen.KernelIdeal.Frame
import proofs.«125282_j60756607369781_2_alg».proof.Proof.Gen.ReferenceIdeal
import proofs.«125282_j60756607369781_2_alg».proof.Proof.Gen.Pre_finite_inputs
import proofs.«125282_j60756607369781_2_alg».proof.Proof.Gen.ReferenceIdeal.Run
import proofs.«125282_j60756607369781_2_alg».proof.Proof.Gen.ReferenceIdeal.Read
import proofs.«125282_j60756607369781_2_alg».proof.Proof.KernelValue
import proofs.«125282_j60756607369781_2_alg».proof.Proof.KernelArray
import proofs.«125282_j60756607369781_2_alg».proof.Proof.KernelHost
import proofs.«125282_j60756607369781_2_alg».proof.Proof.KernelRead
import proofs.«125282_j60756607369781_2_alg».proof.Proof.RefRead
import proofs.«125282_j60756607369781_2_alg».proof.Proof.Spec
import Idealize.ShloMosaic.Adequacy
import Idealize.ShloMosaic.Init

noncomputable section

namespace Cert.Proof

open Idealize.ShloMosaic Idealize.ShloMosaic.TcCoe Idealize.SL.Sem Idealize.ShloMosaic.ValueIdx Cert.Spec

/-! ## The kernel's result array on coordinates -/

/-- The kernel's result at (r, 0) is the network's score of row r on time step 2047 of the arguments. -/
theorem kernel_at (m : (ℓ : Loc Cert.KernelIdeal.nD Cert.KernelIdeal.τ Cert.KernelIdeal.sig) → Buf (Elt Ideal) ℓ)
    (c : Dev Cert.KernelIdeal.nD) (r : Fin 64) (q : Fin 1) :
    Cert.KernelIdeal.Whole.kout m c (ix2 r q) = net (slab (m ((c.tc : Thread Cert.KernelIdeal.nD Cert.KernelIdeal.τ).loc Cert.KernelIdeal.main_arg0)) (2047 : Fin 2048)) (slab (m ((c.tc : Thread Cert.KernelIdeal.nD Cert.KernelIdeal.τ).loc Cert.KernelIdeal.main_arg1)) (2047 : Fin 2048)) (slab (m ((c.tc : Thread Cert.KernelIdeal.nD Cert.KernelIdeal.τ).loc Cert.KernelIdeal.main_arg2)) (2047 : Fin 2048)) (slab (m ((c.tc : Thread Cert.KernelIdeal.nD Cert.KernelIdeal.τ).loc Cert.KernelIdeal.main_arg3)) (2047 : Fin 2048)) (mat (m ((c.tc : Thread Cert.KernelIdeal.nD Cert.KernelIdeal.τ).loc Cert.KernelIdeal.main_arg4))) (vec (m ((c.tc : Thread Cert.KernelIdeal.nD Cert.KernelIdeal.τ).loc Cert.KernelIdeal.main_arg5))) (mat (m ((c.tc : Thread Cert.KernelIdeal.nD Cert.KernelIdeal.τ).loc Cert.KernelIdeal.main_arg6))) (vec (m ((c.tc : Thread Cert.KernelIdeal.nD Cert.KernelIdeal.τ).loc Cert.KernelIdeal.main_arg7))) (mat (m ((c.tc : Thread Cert.KernelIdeal.nD Cert.KernelIdeal.τ).loc Cert.KernelIdeal.main_arg8))) (vec (m ((c.tc : Thread Cert.KernelIdeal.nD Cert.KernelIdeal.τ).loc Cert.KernelIdeal.main_arg9))) (mat (m ((c.tc : Thread Cert.KernelIdeal.nD Cert.KernelIdeal.τ).loc Cert.KernelIdeal.main_arg10))) (vec (m ((c.tc : Thread Cert.KernelIdeal.nD Cert.KernelIdeal.τ).loc Cert.KernelIdeal.main_arg11))) (mat (m ((c.tc : Thread Cert.KernelIdeal.nD Cert.KernelIdeal.τ).loc Cert.KernelIdeal.main_arg12))) (vec (m ((c.tc : Thread Cert.KernelIdeal.nD Cert.KernelIdeal.τ).loc Cert.KernelIdeal.main_arg13))) (mat (m ((c.tc : Thread Cert.KernelIdeal.nD Cert.KernelIdeal.τ).loc Cert.KernelIdeal.main_arg14))) (vec (m ((c.tc : Thread Cert.KernelIdeal.nD Cert.KernelIdeal.τ).loc Cert.KernelIdeal.main_arg15))) (mat (m ((c.tc : Thread Cert.KernelIdeal.nD Cert.KernelIdeal.τ).loc Cert.KernelIdeal.main_arg16))) (vec (m ((c.tc : Thread Cert.KernelIdeal.nD Cert.KernelIdeal.τ).loc Cert.KernelIdeal.main_arg17))) (row (m ((c.tc : Thread Cert.KernelIdeal.nD Cert.KernelIdeal.τ).loc Cert.KernelIdeal.main_arg18))) ((m ((c.tc : Thread Cert.KernelIdeal.nD Cert.KernelIdeal.τ).loc Cert.KernelIdeal.main_arg19)) (ix1 (0 : Fin 1))) r := by
  unfold Cert.KernelIdeal.Whole.kout
  rw [Cert.KernelIdeal.Rows.E20_apply]
  rw [Cert.KernelIdeal.Host.p_mat, Cert.KernelIdeal.Host.v_mat, Cert.KernelIdeal.Host.d_mat, Cert.KernelIdeal.Host.s_mat,
    Cert.KernelIdeal.Host.bp_row, Cert.KernelIdeal.Host.bv_row, Cert.KernelIdeal.Host.bd_row, Cert.KernelIdeal.Host.bs_row,
    Cert.KernelIdeal.Host.b1_row, Cert.KernelIdeal.Host.b2_row, Cert.KernelIdeal.Host.bi_row, Cert.KernelIdeal.Host.b3_at,
    Cert.KernelIdeal.Gen.V_main_arg4, Cert.KernelIdeal.Gen.V_main_arg6, Cert.KernelIdeal.Gen.V_main_arg8, Cert.KernelIdeal.Gen.V_main_arg10,
    Cert.KernelIdeal.Gen.V_main_arg12, Cert.KernelIdeal.Gen.V_main_arg14, Cert.KernelIdeal.Gen.V_main_arg16, Cert.KernelIdeal.Gen.V_main_arg18]

/-! ## The claims -/

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2) (Cert.ReferenceIdeal.Value.run (F := Ideal) m ρ)

/-- Both runs end with the result array holding, at (r, 0), the network's score of row r. -/
theorem algebraic : Cert.algebraic_KernelIdeal_ReferenceIdeal := by
  intro m ρ m' ρ' _ hagree
  refine ⟨fun c => Cert.KernelIdeal.Whole.kout m c, ?_, ?_⟩
  · exact (θ_run Cert.KernelIdeal.defs _ _).mono
      (fun r h c => ⟨(h c).1.trans (Cert.KernelIdeal.Whole.final m c), (h c).2⟩) (Cert.KernelIdeal.ValueP.run_blocks m ρ)
  · refine (θ_run Cert.ReferenceIdeal.defs _ _).mono (fun _ h c => ⟨(h c).1.trans ?_, (h c).2⟩)
      (Cert.ReferenceIdeal.Value.run (F := Ideal) m' ρ')
    rw [Cert.ReferenceIdeal.Read.val_main_v53_eq]
    funext i
    obtain ⟨r, q, rfl⟩ : ∃ (r : Fin 64) (q : Fin 1), i = ix2 r q := ⟨i 0, i 1, eq_ix2 i⟩
    rw [Cert.ReferenceIdeal.Rows.out_at]
    refine Eq.trans ?_ (kernel_at m c r q).symm
    obtain ⟨a0, a1, a2, a3, a4, a5, a6, a7, a8, a9, a10, a11, a12, a13, a14, a15, a16, a17, a18, a19⟩ := hagree c
    rw [a0, a1, a2, a3, a4, a5, a6, a7, a8, a9, a10, a11, a12, a13, a14, a15, a16, a17, a18, a19]

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
